-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x600000 : Shape := ⟨3, ![3, 2, 600000]⟩
abbrev S600000 : Shape := ⟨1, ![600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S128x64 .f32) (main_arg12 : FVec F S64 .f32) (main_arg13 : FVec F S128x64 .f32) (main_arg14 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x128 .f32) (main_arg8 : FVec F S128 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S3x2x600000 32) (main_arg2 : IVec S600000 32) (main_arg3 : FVec F S128x64 .f32) (main_arg4 : FVec F S64 .f32) (main_arg5 : FVec F S64x64 .f32) (main_arg6 : FVec F S64 .f32) (main_arg7 : FVec F S64x128 .f32) (main_arg8 : FVec F S128 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S3x2x600000 : Shape := ⟨3, ![3, 2, 600000]⟩
abbrev S600000 : Shape := ⟨1, ![600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x64 : Shape := ⟨2, ![1, 64]⟩
abbrev S1x128 : Shape := ⟨2, ![1, 128]⟩
abbrev S100000x64 : Shape := ⟨2, ![100000, 64]⟩
abbrev S4000x128 : Shape := ⟨2, ![4000, 128]⟩
abbrev S4000x64 : Shape := ⟨2, ![4000, 64]⟩
abbrev S1x2x600000 : Shape := ⟨3, ![1, 2, 600000]⟩
abbrev S2x600000 : Shape := ⟨2, ![2, 600000]⟩
abbrev S1x600000 : Shape := ⟨2, ![1, 600000]⟩
abbrev S_ : Shape := ⟨0, ![]⟩
abbrev S600000x1 : Shape := ⟨2, ![600000, 1]⟩
abbrev S600000x64 : Shape := ⟨2, ![600000, 64]⟩
abbrev S10000x64 : Shape := ⟨2, ![10000, 64]⟩

abbrev nBuf : Space → Nat
  | .hbm => 44
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S3x2x600000, .i32⟩
  | .hbm, ⟨2, _⟩ => ⟨S600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S1x64, .f32⟩
  | .hbm, ⟨16, _⟩ => ⟨S1x64, .f32⟩
  | .hbm, ⟨17, _⟩ => ⟨S1x128, .f32⟩
  | .hbm, ⟨18, _⟩ => ⟨S1x64, .f32⟩
  | .hbm, ⟨19, _⟩ => ⟨S1x64, .f32⟩
  | .hbm, ⟨20, _⟩ => ⟨S100000x64, .f32⟩
  | .hbm, ⟨21, _⟩ => ⟨S100000x64, .bf16⟩
  | .hbm, ⟨22, _⟩ => ⟨S1x2x600000, .i32⟩
  | .hbm, ⟨23, _⟩ => ⟨S2x600000, .i32⟩
  | .hbm, ⟨24, _⟩ => ⟨S1x600000, .i32⟩
  | .hbm, ⟨25, _⟩ => ⟨S600000, .i32⟩
  | .hbm, ⟨26, _⟩ => ⟨S1x600000, .i32⟩
  | .hbm, ⟨27, _⟩ => ⟨S600000, .i32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x64, .bf16⟩
  | .hbm, ⟨37, _⟩ => ⟨S600000x64, .f32⟩
  | .hbm, ⟨38, _⟩ => ⟨S_, .f32⟩
  | .hbm, ⟨39, _⟩ => ⟨S100000x64, .f32⟩
  | .hbm, ⟨40, _⟩ => ⟨S600000x1, .i32⟩
  | .hbm, ⟨41, _⟩ => ⟨S100000x64, .f32⟩
  | .hbm, ⟨42, _⟩ => ⟨S1x64, .f32⟩
  | .hbm, ⟨43, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S128x64, .f32⟩
  | .local _ .vmem, ⟨9, _⟩ => ⟨S128x64, .f32⟩
  | .local _ .vmem, ⟨10, _⟩ => ⟨S1x64, .f32⟩
  | .local _ .vmem, ⟨11, _⟩ => ⟨S128x64, .f32⟩
  | .local _ .vmem, ⟨12, _⟩ => ⟨S1x64, .f32⟩
  | .local _ .vmem, ⟨13, _⟩ => ⟨S4000x64, .f32⟩
  | .local _ .vmem, ⟨14, _⟩ => ⟨S4000x64, .f32⟩
  | .local _ .vmem, ⟨15, _⟩ => ⟨S4000x64, .bf16⟩
  | .local _ .vmem, ⟨16, _⟩ => ⟨S4000x64, .bf16⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  slices_S3x2x600000_S1x2x600000_0_0_0 : S3x2x600000.Slices ![0, 0, 0] S1x2x600000
  shapeCasts_S1x2x600000_S2x600000 : S1x2x600000.ShapeCasts S2x600000
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  dot_S4000x64_S64x128_S4000x128_1_0_0_1_n_n_wf : DotDims.WF S4000x64 S64x128 S4000x128 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x64.size a ≤ S100000x64.size a
  hwx0_12 : ∀ i : grid0.Coords, EltTy.bits .f32 = 32 ∨ (Rect.block (s := S100000x64) S4000x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x64.size a ≤ S100000x64.size a
  hwx0_13 : ∀ i : grid0.Coords, EltTy.bits .bf16 = 32 ∨ (Rect.block (s := S100000x64) S4000x64.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5_0) S4000x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_1) S4000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v22) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3x2x600000 : Shape := ⟨3, ![3, 2, 600000]⟩
abbrev S600000 : Shape := ⟨1, ![600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S100000x64 : Shape := ⟨2, ![100000, 64]⟩
abbrev S1x64 : Shape := ⟨2, ![1, 64]⟩
abbrev S_ : Shape := ⟨0, ![]⟩
abbrev S1x128 : Shape := ⟨2, ![1, 128]⟩
abbrev S1x2x600000 : Shape := ⟨3, ![1, 2, 600000]⟩
abbrev S2x600000 : Shape := ⟨2, ![2, 600000]⟩
abbrev S1x600000 : Shape := ⟨2, ![1, 600000]⟩
abbrev S600000x1 : Shape := ⟨2, ![600000, 1]⟩
abbrev S600000x128 : Shape := ⟨2, ![600000, 128]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x2x600000, .i32⟩
  | .hbm, ⟨2, _⟩ => ⟨S600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S100000x64, .f32⟩
  | .hbm, ⟨16, _⟩ => ⟨S1x64, .f32⟩
  | .hbm, ⟨17, _⟩ => ⟨S100000x64, .f32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x2x600000, .i32⟩
  | .hbm, ⟨34, _⟩ => ⟨S2x600000, .i32⟩
  | .hbm, ⟨35, _⟩ => ⟨S1x600000, .i32⟩
  | .hbm, ⟨36, _⟩ => ⟨S600000, .i32⟩
  | .hbm, ⟨37, _⟩ => ⟨S1x600000, .i32⟩
  | .hbm, ⟨38, _⟩ => ⟨S600000, .i32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S100000x128, .f32⟩
  | .hbm, ⟨50, _⟩ => ⟨S600000x1, .i32⟩
  | .hbm, ⟨51, _⟩ => ⟨S100000x128, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_v44 : Ref sig .tc := ⟨.hbm, 68, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x600000_S1x2x600000_0_0_0 : S3x2x600000.Slices ![0, 0, 0] S1x2x600000
  shapeCasts_S1x2x600000_S2x600000 : S1x2x600000.ShapeCasts S2x600000
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KerRun.lean ====
/-
  The run of the two-call program with its result array NAMED.

  Every weakly fair execution of @main terminates without a fault; at the end the result buffer holds what the second
  call's write-backs leave (the last boundary's contents `W4` read at the result buffer) and the fifteen argument arrays
  are as launched. It is the library's theorem for a program of several regions among stretches of host operations,
  applied to the generated segments, with the final state read at one more buffer than the frame claim reads.
-/
import proofs.«175246_j20160576487476_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: termination, no fault, the result buffer at the last boundary's contents, the arguments as launched. -/
theorem run_result : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.RunValue

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.GnnSpec.lean ====
/-
  The mathematics both programs compute, row by row, on the extended reals.

  A node's input row `x : Fin 128 → EReal` goes through three dense layers (128 → 64 → 64 → 128, `max · 0` after the
  first two) to its hidden row `h`. A node's output row is `max (edge term + self term) 0`: the self term is
  `(h·W0 + b0) + (x·W1 + b1)`; the edge term sums, over the edges that land on the node, the hidden rows of the
  edges' source nodes, projected through `WL`, plus `bL`. The two programs differ in WHERE the projection through
  `WL` happens: before the sum over the edges (each source row projected, then summed) or after it (the hidden rows
  summed, then the sum projected). Matrices are curried functions of (row, column); arrays are read at coordinates.
-/
import Idealize.ShloMosaic.PureOps.Ideal
import Idealize.ShloMosaic.Lib.ValueIdx

noncomputable section

namespace Cert.GnnSpec

open Idealize.ShloMosaic Idealize.ShloMosaic.ValueIdx

/-- A row times a matrix: entry `q` is `∑ i, x i * w i q`. -/
def proj {n k : Nat} (x : Fin n → EReal) (w : Fin n → Fin k → EReal) : Fin k → EReal :=
  fun q => ∑ i : Fin n, x i * w i q

/-- A dense layer on a row: `x·W + b`. -/
def dense {n k : Nat} (x : Fin n → EReal) (w : Fin n → Fin k → EReal) (b : Fin k → EReal) : Fin k → EReal :=
  fun q => proj x w q + b q

/-- The rectifier on a row: `max · 0` entry by entry. -/
def relu {k : Nat} (v : Fin k → EReal) : Fin k → EReal := fun q => max (v q) 0

/-- A node's hidden row: three dense layers, the rectifier after the first two. -/
def hidden (x : Fin 128 → EReal) (w1 : Fin 128 → Fin 64 → EReal) (b1 : Fin 64 → EReal)
    (w2 : Fin 64 → Fin 64 → EReal) (b2 : Fin 64 → EReal) (w3 : Fin 64 → Fin 128 → EReal) (b3 : Fin 128 → EReal) :
    Fin 128 → EReal :=
  dense (relu (dense (relu (dense x w1 b1)) w2 b2)) w3 b3

/-- The part of a node's output row that does not pass through the edges: `(h·W0 + b0) + (x·W1 + b1)`. -/
def selfTerm (x h : Fin 128 → EReal) (w0 : Fin 128 → Fin 64 → EReal) (b0 : Fin 64 → EReal)
    (w1 : Fin 128 → Fin 64 → EReal) (b1 : Fin 64 → EReal) : Fin 64 → EReal :=
  fun j => dense h w0 b0 j + dense x w1 b1 j

/-- The matrix of an `[n, k]` array: its entries at coordinates. -/
def mat {n k : Nat} (a : (⟨2, ![n, k]⟩ : Shape).Idx → EReal) : Fin n → Fin k → EReal := fun i q => a (ix2 i q)

/-- The row vector of a `[1, k]` array. -/
def rowOf {k : Nat} (a : (⟨2, ![1, k]⟩ : Shape).Idx → EReal) : Fin k → EReal := fun q => a (ix2 (0 : Fin 1) q)

/-- The vector of a `[k]` array. -/
def vecOf {k : Nat} (a : (⟨1, ![k]⟩ : Shape).Idx → EReal) : Fin k → EReal := fun q => a (ix1 q)

/-- An `[n, k]` array from its entries at coordinates. -/
def ofEntries {n k : Nat} (f : Fin n → Fin k → EReal) : (⟨2, ![n, k]⟩ : Shape).Idx → EReal :=
  fun i => f ⟨(i 0).val, idx2_lt0 i⟩ ⟨(i 1).val, idx2_lt1 i⟩

theorem ofEntries_ix2 {n k : Nat} (f : Fin n → Fin k → EReal) (a : Fin n) (b : Fin k) : ofEntries f (ix2 a b) = f a b := rfl

theorem mat_ofEntries {n k : Nat} (f : Fin n → Fin k → EReal) : mat (ofEntries f) = f := rfl

/-- The output entry where the projection through `wl` comes BEFORE the sum over the edges: `E` the edges that land
    on the node, `src e` the hidden row of edge `e`'s source node. -/
def outProjFirst {ι : Type} (E : Finset ι) (src : ι → Fin 128 → EReal) (wl : Fin 128 → Fin 64 → EReal) (bl : Fin 64 → EReal)
    (self : Fin 64 → EReal) (j : Fin 64) : EReal :=
  max (((0 + ∑ e ∈ E, proj (src e) wl j) + bl j) + self j) 0

/-- The output entry where the hidden rows are summed over the edges FIRST and the sum projected through `wl`. -/
def outSumFirst {ι : Type} (E : Finset ι) (src : ι → Fin 128 → EReal) (wl : Fin 128 → Fin 64 → EReal) (bl : Fin 64 → EReal)
    (selfA selfB : Fin 64 → EReal) (j : Fin 64) : EReal :=
  max (((proj (fun k => 0 + ∑ e ∈ E, src e k) wl j + bl j) + selfA j) + selfB j) 0

end Cert.GnnSpec

end
-- ==== Proof.KerBody.lean ====
import proofs.«175246_j20160576487476_2_alg».proof.Proof.Gen.KernelIdeal.Skeleton
import proofs.«175246_j20160576487476_2_alg».proof.Proof.LibPlainDot
import proofs.«175246_j20160576487476_2_alg».proof.Proof.GnnSpec
import Idealize.ShloMosaic.Lib.ValueIdx
import Idealize.ShloMosaic.Lib.ValueLayout
import Idealize.ShloMosaic.Lib.Pipeline.Value
import Idealize.ShloMosaic.PureOps.Ideal.Laws

noncomputable section

/-!
  The kernel bodies' arithmetic, read at coordinates.

  A block of the first kernel holds 4000 node rows. Row `r` of what it stores depends on row `r` of the input block
  only: the hidden row is the three dense layers of that input row (a change of float format is the identity on the
  extended reals, and a matrix product into a zero accumulator is the plain sum of products); the stored projection
  is the hidden row times `WL`; the stored self term is `(h·W0 + b0) + (x·W1 + b1)`. The second kernel stores, entry
  by entry, `max ((edge sum + bL) + self term) 0`.
-/

namespace Cert.KernelIdeal.BodyValue

open Cert.KernelIdeal Cert.KernelIdeal.Gen Idealize.ShloMosaic Idealize.ShloMosaic.ValueIdx Cert.GnnSpec

/-- A `4000×128` by `128×64` product into a zero accumulator, at `(r, c)`. -/
theorem mm_128_64 {φ₁ φ₂ : FTy} (lhs : FVec Ideal S4000x128 φ₁) (rhs : FVec Ideal S128x64 φ₂) (r : Fin 4000) (c : Fin 64) :
    matmul dot_S4000x128_S128x64_S4000x64_1_0_0_1_n_n none lhs rhs (constant S4000x64 .f32 0x00000000#32) (ix2 r c)
      = ∑ k : Fin 128, lhs (ix2 r k) * rhs (ix2 k c) :=
  PlainDot.matmul_zero_apply Facts₀.dot_S4000x128_S128x64_S4000x64_1_0_0_1_n_n_wf none lhs rhs r c

/-- A `4000×64` by `64×64` product into a zero accumulator, at `(r, c)`. -/
theorem mm_64_64 {φ₁ φ₂ : FTy} (lhs : FVec Ideal S4000x64 φ₁) (rhs : FVec Ideal S64x64 φ₂) (r : Fin 4000) (c : Fin 64) :
    matmul dot_S4000x64_S64x64_S4000x64_1_0_0_1_n_n none lhs rhs (constant S4000x64 .f32 0x00000000#32) (ix2 r c)
      = ∑ k : Fin 64, lhs (ix2 r k) * rhs (ix2 k c) :=
  PlainDot.matmul_zero_apply Facts₀.dot_S4000x64_S64x64_S4000x64_1_0_0_1_n_n_wf none lhs rhs r c

/-- A `4000×64` by `64×128` product into a zero accumulator, at `(r, c)`. -/
theorem mm_64_128 {φ₁ φ₂ : FTy} (lhs : FVec Ideal S4000x64 φ₁) (rhs : FVec Ideal S64x128 φ₂) (r : Fin 4000) (c : Fin 128) :
    matmul dot_S4000x64_S64x128_S4000x128_1_0_0_1_n_n none lhs rhs (constant S4000x128 .f32 0x00000000#32) (ix2 r c)
      = ∑ k : Fin 64, lhs (ix2 r k) * rhs (ix2 k c) :=
  PlainDot.matmul_zero_apply Facts₀.dot_S4000x64_S64x128_S4000x128_1_0_0_1_n_n_wf none lhs rhs r c

/-- A `[1, 64]` bias broadcast over the block's rows reads its one row. -/
theorem bias_row64 (v : Vec Ideal S1x64 .f32) (r : Fin 4000) (c : Fin 64) :
    (broadcastTo S4000x64 (shapeCast S1x64 v shapeCasts_S1x64_S1x64 : FVec Ideal S1x64 .f32) broadcasts_S1x64_S4000x64 : FVec Ideal S4000x64 .f32) (ix2 r c)
      = rowOf v c := by
  rw [shapeCast_self]
  exact broadcastTo_1b_ab_apply (α := Ideal .f32) v broadcasts_S1x64_S4000x64 r c

/-- A `[1, 128]` bias broadcast over the block's rows reads its one row. -/
theorem bias_row128 (v : Vec Ideal S1x128 .f32) (r : Fin 4000) (c : Fin 128) :
    (broadcastTo S4000x128 (shapeCast S1x128 v shapeCasts_S1x128_S1x128 : FVec Ideal S1x128 .f32) broadcasts_S1x128_S4000x128 : FVec Ideal S4000x128 .f32) (ix2 r c)
      = rowOf v c := by
  rw [shapeCast_self]
  exact broadcastTo_1b_ab_apply (α := Ideal .f32) v broadcasts_S1x128_S4000x128 r c

/-- The zero literal is the real zero. -/
theorem zero_lit : (FloatOps.ofBits (F := Ideal) .f32 0x00000000#32 : EReal) = 0 := Ideal.ofBits_zero_f32

/-- THE HIDDEN ROW: entry `(r, k)` of the block's hidden activations is the three dense layers of input row `r`. -/
theorem hidden_pay (v0 : Vec Ideal S4000x128 .f32) (v2 : Vec Ideal S128x64 .f32) (v5 : Vec Ideal S1x64 .f32)
    (v11 : Vec Ideal S64x64 .f32) (v15 : Vec Ideal S1x64 .f32) (v21 : Vec Ideal S64x128 .f32) (v25 : Vec Ideal S1x128 .f32)
    (r : Fin 4000) (k : Fin 128) :
    k0_pay4 v0 v2 v5 v11 v15 v21 v25 (ix2 r k)
      = hidden (mat v0 r) (mat v2) (rowOf v5) (mat v11) (rowOf v15) (mat v21) (rowOf v25) k := by
  unfold k0_pay4 k0_pay3
  simp only [truncf_apply, addf_apply, maximumf_apply, broadcast_apply, mm_128_64, mm_64_64, mm_64_128, bias_row64,
    bias_row128]
  simp only [zero_lit]
  rfl

/-- THE STORED PROJECTION: entry `(r, j)` is the hidden row of input row `r` times `WL`. -/
theorem proj_pay (v0 : Vec Ideal S4000x128 .f32) (v2 : Vec Ideal S128x64 .f32) (v5 : Vec Ideal S1x64 .f32)
    (v11 : Vec Ideal S64x64 .f32) (v15 : Vec Ideal S1x64 .f32) (v21 : Vec Ideal S64x128 .f32) (v25 : Vec Ideal S1x128 .f32)
    (v30 : Vec Ideal S128x64 .f32) (r : Fin 4000) (j : Fin 64) :
    k0_pay2 (k0_pay5 v0 v2 v5 v11 v15 v21 v25 v30) (ix2 r j)
      = proj (hidden (mat v0 r) (mat v2) (rowOf v5) (mat v11) (rowOf v15) (mat v21) (rowOf v25)) (mat v30) j := by
  unfold k0_pay2 k0_pay5
  simp only [truncf_apply, mm_128_64, hidden_pay]
  rfl

/-- THE STORED SELF TERM: entry `(r, j)` is `(h·W0 + b0) + (x·W1 + b1)` of input row `r` and its hidden row `h`. -/
theorem self_pay (v0 : Vec Ideal S4000x128 .f32) (v2 : Vec Ideal S128x64 .f32) (v5 : Vec Ideal S1x64 .f32)
    (v11 : Vec Ideal S64x64 .f32) (v15 : Vec Ideal S1x64 .f32) (v21 : Vec Ideal S64x128 .f32) (v25 : Vec Ideal S1x128 .f32)
    (v33 : Vec Ideal S128x64 .f32) (v36 : Vec Ideal S1x64 .f32) (v40 : Vec Ideal S128x64 .f32) (v43 : Vec Ideal S1x64 .f32)
    (r : Fin 4000) (j : Fin 64) :
    k0_pay1 (k0_pay3 v0) (k0_pay4 v0 v2 v5 v11 v15 v21 v25) (k0_pay6 v33) v36 v40 v43 (ix2 r j)
      = selfTerm (mat v0 r) (hidden (mat v0 r) (mat v2) (rowOf v5) (mat v11) (rowOf v15) (mat v21) (rowOf v25))
          (mat v33) (rowOf v36) (mat v40) (rowOf v43) j := by
  unfold k0_pay1 k0_pay3 k0_pay6
  simp only [truncf_apply, addf_apply, mm_128_64, bias_row64, hidden_pay]
  rfl

/-- THE SECOND KERNEL'S STORE: entry `(r, j)` is `max ((edge sum + bL) + self term) 0`. -/
theorem out_pay (v0 : Vec Ideal S10000x64 .f32) (v2 : Vec Ideal S1x64 .f32) (v6 : Vec Ideal S10000x64 .f32)
    (r : Fin 10000) (j : Fin 64) :
    k1_pay1 v0 v2 v6 (ix2 r j) = max ((v0 (ix2 r j) + rowOf v2 j) + v6 (ix2 r j)) 0 := by
  unfold k1_pay1
  simp only [shapeCast_self, addf_apply, maximumf_apply, broadcast_apply, zero_lit]
  exact congrArg (fun t => max (v0 (ix2 r j) + t + v6 (ix2 r j)) 0)
    (broadcastTo_1b_ab_apply (α := Ideal .f32) v2 broadcasts_S1x64_S10000x64 r j)

end Cert.KernelIdeal.BodyValue
end
-- ==== Proof.KerArrays.lean ====
import proofs.«175246_j20160576487476_2_alg».proof.Proof.Gen.KernelIdeal.Frame
import proofs.«175246_j20160576487476_2_alg».proof.Proof.KerBody
import Idealize.ShloMosaic.Lib.Pipeline.Value

/-!
  From blocks to whole arrays, for both calls, at ANY contents `V` the TensorCore's buffers hold when a call starts.

  The first call runs 25 grid points; point `t` reads rows `4000 t … 4000 t + 3999` of the input array and every
  weight and bias whole, and writes back the same rows of its two output arrays. Since row `r` of what the body stores
  depends on row `r` of the input block only, each written block is a block of ONE whole-array function: `projArr`
  (hidden row times `WL`) and `selfArr` (the self term). The 25 blocks tile the 100000 rows, so after the call the
  arrays ARE those functions. The second call (10 points of 10000 rows, pointwise) likewise leaves `outArr`.
-/

set_option maxRecDepth 16384

noncomputable section

namespace Cert.KernelIdeal.ArrValue

open Cert.KernelIdeal Cert.KernelIdeal.Gen Cert.KernelIdeal.BodyValue Idealize.ShloMosaic Idealize.ShloMosaic.TcCoe Idealize.SL.Sem
open Idealize.ShloMosaic.ValueIdx Cert.GnnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden row of node `n`, from the input array and the three layers' weights and `[1, ·]` biases. -/
def hiddenOf (X : S100000x128.Idx → EReal) (W1 : S128x64.Idx → EReal) (B1 : S1x64.Idx → EReal) (W2 : S64x64.Idx → EReal)
    (B2 : S1x64.Idx → EReal) (W3 : S64x128.Idx → EReal) (B3 : S1x128.Idx → EReal) (n : Fin 100000) : Fin 128 → EReal :=
  hidden (mat X n) (mat W1) (rowOf B1) (mat W2) (rowOf B2) (mat W3) (rowOf B3)

/-- The projected array: node `n`'s hidden row times `WL`. -/
def projArr (X : S100000x128.Idx → EReal) (W1 : S128x64.Idx → EReal) (B1 : S1x64.Idx → EReal) (W2 : S64x64.Idx → EReal)
    (B2 : S1x64.Idx → EReal) (W3 : S64x128.Idx → EReal) (B3 : S1x128.Idx → EReal) (WL : S128x64.Idx → EReal) :
    S100000x64.Idx → EReal :=
  ofEntries fun n j => proj (hiddenOf X W1 B1 W2 B2 W3 B3 n) (mat WL) j

/-- The self-term array: `(h·W0 + b0) + (x·W1' + b1')` of node `n`. -/
def selfArr (X : S100000x128.Idx → EReal) (W1 : S128x64.Idx → EReal) (B1 : S1x64.Idx → EReal) (W2 : S64x64.Idx → EReal)
    (B2 : S1x64.Idx → EReal) (W3 : S64x128.Idx → EReal) (B3 : S1x128.Idx → EReal) (W0 : S128x64.Idx → EReal)
    (B0 : S1x64.Idx → EReal) (WX : S128x64.Idx → EReal) (BX : S1x64.Idx → EReal) : S100000x64.Idx → EReal :=
  ofEntries fun n j => selfTerm (mat X n) (hiddenOf X W1 B1 W2 B2 W3 B3 n) (mat W0) (rowOf B0) (mat WX) (rowOf BX) j

/-- The printed index maps of the first call, decided over its 25 points: the input rows move with the output rows
    (block `t` of each is rows `4000 t …`), every weight and bias window stays at block `(0, 0)`. -/
theorem idx_facts0 : ∀ t : Fin cfg0.N,
    (win0_13.index t (0 : Fin 2) = t.val ∧ win0_13.index t (1 : Fin 2) = 0)
    ∧ (win0_12.index t (0 : Fin 2) = t.val ∧ win0_12.index t (1 : Fin 2) = 0)
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem N0 : cfg0.N = 25 := N_0

/-- The row of the array that row `r` of block `t` is. -/
def rowAt0 (t : Fin cfg0.N) (r : Fin 4000) : Fin 100000 := ⟨t.val * 4000 + r.val, by have h1 := t.isLt; have h2 : cfg0.N = 25 := N0; have h3 := r.isLt; omega⟩

/-- Row `r` of the input block at point `t` is row `4000 t + r` of the input array. -/
theorem xblk_row (c : Dev nD) (t : Fin cfg0.N) (r : Fin 4000) :
    mat (iblk0 V c 0 t : S4000x128.Idx → EReal) r = mat (V c main_arg0 : S100000x128.Idx → EReal) (rowAt0 t r) := by
  obtain ⟨-, -, ⟨e0, e1⟩, -⟩ := idx_facts0 t
  funext k
  show V c main_arg0 (((cfg0.win 0).blk t).view.emb (ix2 r k)) = V c main_arg0 (ix2 (rowAt0 t r) k)
  refine congrArg (V c main_arg0) ?_
  funext a; apply Fin.ext
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

/-- Window 1's block at any point is its whole array (its block index is `(0, 0)` at every point). -/
theorem wblk1 (c : Dev nD) (t : Fin cfg0.N) :
    (iblk0 V c 1 t : S128x64.Idx → EReal) = (V c main_arg3 : S128x64.Idx → EReal) := by
  obtain ⟨-, -, -, ⟨e0, e1⟩, -⟩ := idx_facts0 t
  funext y
  show V c main_arg3 (((cfg0.win 1).blk t).view.emb y) = V c main_arg3 y
  refine congrArg (V c main_arg3) ?_
  funext a; apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- Window 2's block at any point is its whole array (its block index is `(0, 0)` at every point). -/
theorem wblk2 (c : Dev nD) (t : Fin cfg0.N) :
    (iblk0 V c 2 t : S1x64.Idx → EReal) = (V c main_v0 : S1x64.Idx → EReal) := by
  obtain ⟨-, -, -, -, ⟨e0, e1⟩, -⟩ := idx_facts0 t
  funext y
  show V c main_v0 (((cfg0.win 2).blk t).view.emb y) = V c main_v0 y
  refine congrArg (V c main_v0) ?_
  funext a; apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- Window 3's block at any point is its whole array (its block index is `(0, 0)` at every point). -/
theorem wblk3 (c : Dev nD) (t : Fin cfg0.N) :
    (iblk0 V c 3 t : S64x64.Idx → EReal) = (V c main_arg5 : S64x64.Idx → EReal) := by
  obtain ⟨-, -, -, -, -, ⟨e0, e1⟩, -⟩ := idx_facts0 t
  funext y
  show V c main_arg5 (((cfg0.win 3).blk t).view.emb y) = V c main_arg5 y
  refine congrArg (V c main_arg5) ?_
  funext a; apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Window 4's block at any point is its whole array (its block index is `(0, 0)` at every point). -/
theorem wblk4 (c : Dev nD) (t : Fin cfg0.N) :
    (iblk0 V c 4 t : S1x64.Idx → EReal) = (V c main_v1 : S1x64.Idx → EReal) := by
  obtain ⟨-, -, -, -, -, -, ⟨e0, e1⟩, -⟩ := idx_facts0 t
  funext y
  show V c main_v1 (((cfg0.win 4).blk t).view.emb y) = V c main_v1 y
  refine congrArg (V c main_v1) ?_
  funext a; apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Window 5's block at any point is its whole array (its block index is `(0, 0)` at every point). -/
theorem wblk5 (c : Dev nD) (t : Fin cfg0.N) :
    (iblk0 V c 5 t : S64x128.Idx → EReal) = (V c main_arg7 : S64x128.Idx → EReal) := by
  obtain ⟨-, -, -, -, -, -, -, ⟨e0, e1⟩, -⟩ := idx_facts0 t
  funext y
  show V c main_arg7 (((cfg0.win 5).blk t).view.emb y) = V c main_arg7 y
  refine congrArg (V c main_arg7) ?_
  funext a; apply Fin.ext
  match a with
  | ⟨0, _⟩ => show win0_5.index t (0 : Fin 2) * 64 + 1 * (y 0).val = (y 0).val; rw [e0]; omega
  | ⟨1, _⟩ => show win0_5.index t (1 : Fin 2) * 128 + 1 * (y 1).val = (y 1).val; rw [e1]; omega

/-- Window 6's block at any point is its whole array (its block index is `(0, 0)` at every point). -/
theorem wblk6 (c : Dev nD) (t : Fin cfg0.N) :
    (iblk0 V c 6 t : S1x128.Idx → EReal) = (V c main_v2 : S1x128.Idx → EReal) := by
  obtain ⟨-, -, -, -, -, -, -, -, ⟨e0, e1⟩, -⟩ := idx_facts0 t
  funext y
  show V c main_v2 (((cfg0.win 6).blk t).view.emb y) = V c main_v2 y
  refine congrArg (V c main_v2) ?_
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block at any point is its whole array (its block index is `(0, 0)` at every point). -/
theorem wblk7 (c : Dev nD) (t : Fin cfg0.N) :
    (iblk0 V c 7 t : S128x64.Idx → EReal) = (V c main_arg9 : S128x64.Idx → EReal) := by
  obtain ⟨-, -, -, -, -, -, -, -, -, ⟨e0, e1⟩, -⟩ := idx_facts0 t
  funext y
  show V c main_arg9 (((cfg0.win 7).blk t).view.emb y) = V c main_arg9 y
  refine congrArg (V c main_arg9) ?_
  funext a; apply Fin.ext
  match a with
  | ⟨0, _⟩ => show win0_7.index t (0 : Fin 2) * 128 + 1 * (y 0).val = (y 0).val; rw [e0]; omega
  | ⟨1, _⟩ => show win0_7.index t (1 : Fin 2) * 64 + 1 * (y 1).val = (y 1).val; rw [e1]; omega

/-- Window 8's block at any point is its whole array (its block index is `(0, 0)` at every point). -/
theorem wblk8 (c : Dev nD) (t : Fin cfg0.N) :
    (iblk0 V c 8 t : S128x64.Idx → EReal) = (V c main_arg11 : S128x64.Idx → EReal) := by
  obtain ⟨-, -, -, -, -, -, -, -, -, -, ⟨e0, e1⟩, -⟩ := idx_facts0 t
  funext y
  show V c main_arg11 (((cfg0.win 8).blk t).view.emb y) = V c main_arg11 y
  refine congrArg (V c main_arg11) ?_
  funext a; apply Fin.ext
  match a with
  | ⟨0, _⟩ => show win0_8.index t (0 : Fin 2) * 128 + 1 * (y 0).val = (y 0).val; rw [e0]; omega
  | ⟨1, _⟩ => show win0_8.index t (1 : Fin 2) * 64 + 1 * (y 1).val = (y 1).val; rw [e1]; omega

/-- Window 9's block at any point is its whole array (its block index is `(0, 0)` at every point). -/
theorem wblk9 (c : Dev nD) (t : Fin cfg0.N) :
    (iblk0 V c 9 t : S1x64.Idx → EReal) = (V c main_v3 : S1x64.Idx → EReal) := by
  obtain ⟨-, -, -, -, -, -, -, -, -, -, -, ⟨e0, e1⟩, -⟩ := idx_facts0 t
  funext y
  show V c main_v3 (((cfg0.win 9).blk t).view.emb y) = V c main_v3 y
  refine congrArg (V c main_v3) ?_
  funext a; apply Fin.ext
  match a with
  | ⟨0, _⟩ => show win0_9.index t (0 : Fin 2) * 1 + 1 * (y 0).val = (y 0).val; rw [e0]; omega
  | ⟨1, _⟩ => show win0_9.index t (1 : Fin 2) * 64 + 1 * (y 1).val = (y 1).val; rw [e1]; omega

/-- Window 10's block at any point is its whole array (its block index is `(0, 0)` at every point). -/
theorem wblk10 (c : Dev nD) (t : Fin cfg0.N) :
    (iblk0 V c 10 t : S128x64.Idx → EReal) = (V c main_arg13 : S128x64.Idx → EReal) := by
  obtain ⟨-, -, -, -, -, -, -, -, -, -, -, -, ⟨e0, e1⟩, -⟩ := idx_facts0 t
  funext y
  show V c main_arg13 (((cfg0.win 10).blk t).view.emb y) = V c main_arg13 y
  refine congrArg (V c main_arg13) ?_
  funext a; apply Fin.ext
  match a with
  | ⟨0, _⟩ => show win0_10.index t (0 : Fin 2) * 128 + 1 * (y 0).val = (y 0).val; rw [e0]; omega
  | ⟨1, _⟩ => show win0_10.index t (1 : Fin 2) * 64 + 1 * (y 1).val = (y 1).val; rw [e1]; omega

/-- Window 11's block at any point is its whole array (its block index is `(0, 0)` at every point). -/
theorem wblk11 (c : Dev nD) (t : Fin cfg0.N) :
    (iblk0 V c 11 t : S1x64.Idx → EReal) = (V c main_v4 : S1x64.Idx → EReal) := by
  obtain ⟨-, -, -, -, -, -, -, -, -, -, -, -, -, ⟨e0, e1⟩⟩ := idx_facts0 t
  funext y
  show V c main_v4 (((cfg0.win 11).blk t).view.emb y) = V c main_v4 y
  refine congrArg (V c main_v4) ?_
  funext a; apply Fin.ext
  match a with
  | ⟨0, _⟩ => show win0_11.index t (0 : Fin 2) * 1 + 1 * (y 0).val = (y 0).val; rw [e0]; omega
  | ⟨1, _⟩ => show win0_11.index t (1 : Fin 2) * 64 + 1 * (y 1).val = (y 1).val; rw [e1]; omega

/-- Row `r` of point `t`'s output block sits at row `4000 t + r` of the output array. -/
theorem emb13 (t : Fin cfg0.N) (r : Fin 4000) (j : Fin 64) :
    ((cfg0.win 13).blk t).view.emb (ix2 r j) = ix2 (rowAt0 t r) j := by
  obtain ⟨⟨e0, e1⟩, -⟩ := idx_facts0 t
  funext a; apply Fin.ext
  match a with
  | ⟨0, _⟩ => show win0_13.index t (0 : Fin 2) * 4000 + 1 * r.val = t.val * 4000 + r.val; rw [e0]; omega
  | ⟨1, _⟩ => show win0_13.index t (1 : Fin 2) * 64 + 1 * j.val = j.val; rw [e1]; omega

theorem emb12 (t : Fin cfg0.N) (r : Fin 4000) (j : Fin 64) :
    ((cfg0.win 12).blk t).view.emb (ix2 r j) = ix2 (rowAt0 t r) j := by
  obtain ⟨-, ⟨e0, e1⟩, -⟩ := idx_facts0 t
  funext a; apply Fin.ext
  match a with
  | ⟨0, _⟩ => show win0_12.index t (0 : Fin 2) * 4000 + 1 * r.val = t.val * 4000 + r.val; rw [e0]; omega
  | ⟨1, _⟩ => show win0_12.index t (1 : Fin 2) * 64 + 1 * j.val = j.val; rw [e1]; omega

/-- WHAT POINT `t` WRITES BACK to the projected array is block `t` of `projArr` of the arrays as the region finds them. -/
theorem flushed13_eq (c : Dev nD) (t : Fin cfg0.N) :
    (dat0 V c).flushed 13 t = ((cfg0.win 13).blk t).view.read (Elt Ideal)
      (projArr (V c main_arg0) (V c main_arg3) (V c main_v0) (V c main_arg5) (V c main_v1) (V c main_arg7) (V c main_v2) (V c main_arg9)) := by
  show (cfg0.win 13).cut (grid0.coords t) ((dat0 V c).after 13 t) = _
  rw [after0_13]
  unfold out0_13
  rw [View.canon_unit_zero hz]
  simp only [View.ld_unit_zero (S := S4000x128) hz, View.ld_unit_zero (S := S128x64) hz, View.ld_unit_zero (S := S1x64) hz, View.ld_unit_zero (S := S64x64) hz, View.ld_unit_zero (S := S64x128) hz, View.ld_unit_zero (S := S1x128) hz]
  funext y
  obtain ⟨r, j, rfl⟩ : ∃ (r : Fin 4000) (j : Fin 64), y = ix2 r j := ⟨y 0, y 1, eq_ix2 y⟩
  show k0_pay2 (k0_pay5 (iblk0 V c 0 t) (iblk0 V c 1 t) (iblk0 V c 2 t) (iblk0 V c 3 t) (iblk0 V c 4 t) (iblk0 V c 5 t) (iblk0 V c 6 t) (iblk0 V c 7 t)) (ix2 r j)
    = projArr (V c main_arg0) (V c main_arg3) (V c main_v0) (V c main_arg5) (V c main_v1) (V c main_arg7) (V c main_v2) (V c main_arg9) (((cfg0.win 13).blk t).view.emb (ix2 r j))
  rw [emb13]
  refine (proj_pay (iblk0 V c 0 t) (iblk0 V c 1 t) (iblk0 V c 2 t) (iblk0 V c 3 t) (iblk0 V c 4 t) (iblk0 V c 5 t) (iblk0 V c 6 t) (iblk0 V c 7 t) r j).trans ?_
  rw [xblk_row, wblk1, wblk2, wblk3, wblk4, wblk5, wblk6, wblk7]
  rfl

/-- WHAT POINT `t` WRITES BACK to the self-term array is block `t` of `selfArr` of the arrays as the region finds them. -/
theorem flushed12_eq (c : Dev nD) (t : Fin cfg0.N) :
    (dat0 V c).flushed 12 t = ((cfg0.win 12).blk t).view.read (Elt Ideal)
      (selfArr (V c main_arg0) (V c main_arg3) (V c main_v0) (V c main_arg5) (V c main_v1) (V c main_arg7) (V c main_v2) (V c main_arg11) (V c main_v3) (V c main_arg13) (V c main_v4)) := by
  show (cfg0.win 12).cut (grid0.coords t) ((dat0 V c).after 12 t) = _
  rw [after0_12]
  unfold out0_12
  rw [View.canon_unit_zero hz]
  simp only [View.ld_unit_zero (S := S4000x128) hz, View.ld_unit_zero (S := S128x64) hz, View.ld_unit_zero (S := S1x64) hz, View.ld_unit_zero (S := S64x64) hz, View.ld_unit_zero (S := S64x128) hz, View.ld_unit_zero (S := S1x128) hz]
  funext y
  obtain ⟨r, j, rfl⟩ : ∃ (r : Fin 4000) (j : Fin 64), y = ix2 r j := ⟨y 0, y 1, eq_ix2 y⟩
  show k0_pay1 (k0_pay3 (iblk0 V c 0 t)) (k0_pay4 (iblk0 V c 0 t) (iblk0 V c 1 t) (iblk0 V c 2 t) (iblk0 V c 3 t) (iblk0 V c 4 t) (iblk0 V c 5 t) (iblk0 V c 6 t)) (k0_pay6 (iblk0 V c 8 t)) (iblk0 V c 9 t) (iblk0 V c 10 t) (iblk0 V c 11 t) (ix2 r j)
    = selfArr (V c main_arg0) (V c main_arg3) (V c main_v0) (V c main_arg5) (V c main_v1) (V c main_arg7) (V c main_v2) (V c main_arg11) (V c main_v3) (V c main_arg13) (V c main_v4) (((cfg0.win 12).blk t).view.emb (ix2 r j))
  rw [emb12]
  refine (self_pay (iblk0 V c 0 t) (iblk0 V c 1 t) (iblk0 V c 2 t) (iblk0 V c 3 t) (iblk0 V c 4 t) (iblk0 V c 5 t) (iblk0 V c 6 t) (iblk0 V c 8 t) (iblk0 V c 9 t) (iblk0 V c 10 t) (iblk0 V c 11 t) r j).trans ?_
  rw [xblk_row, wblk1, wblk2, wblk3, wblk4, wblk5, wblk6, wblk8, wblk9, wblk10, wblk11]
  rfl

/-- An index of the array is in point `t`'s block iff each coordinate is in the block's range on its axis. -/
theorem mem_blk13 (t : Fin cfg0.N) (i : S100000x64.Idx) :
    i ∈ ((cfg0.win 13).blk t).view.set ↔ ∀ a : Fin 2, win0_13.index t a * S4000x64.size a ≤ (i a).val ∧ (i a).val < win0_13.index t a * S4000x64.size a + S4000x64.size a := by
  show i ∈ ((View.whole main_v5_1).slice (win0_13.rect t)).set ↔ _
  rw [View.set_slice_whole, Rect.mem_set_unit]
  exact Iff.rfl

/-- Every row of the array is in the block of the point its row number divided by 4000 names. -/
theorem cover13 (i : S100000x64.Idx) :
    ∃ t : Fin cfg0.N, (cfg0.win 13).flush t = true ∧ i ∈ ((cfg0.win 13).blk t).view.set := by
  have hi0 : (i 0).val < 100000 := (i 0).isLt
  have hi1 : (i 1).val < 64 := (i 1).isLt
  have hlt : (i 0).val / 4000 < cfg0.N := by have h2 := N0; omega
  obtain ⟨⟨e0, e1⟩, -⟩ := idx_facts0 ⟨(i 0).val / 4000, hlt⟩
  have e0' : win0_13.index ⟨(i 0).val / 4000, hlt⟩ (0 : Fin 2) = (i 0).val / 4000 := e0
  refine ⟨⟨(i 0).val / 4000, hlt⟩, flush0_13 _, ?_⟩
  rw [mem_blk13]
  intro a
  match a with
  | ⟨0, _⟩ =>
    show win0_13.index ⟨(i 0).val / 4000, hlt⟩ (0 : Fin 2) * 4000 ≤ (i 0).val ∧ (i 0).val < win0_13.index ⟨(i 0).val / 4000, hlt⟩ (0 : Fin 2) * 4000 + 4000
    rw [e0']; omega
  | ⟨1, _⟩ =>
    show win0_13.index ⟨(i 0).val / 4000, hlt⟩ (1 : Fin 2) * 64 ≤ (i 1).val ∧ (i 1).val < win0_13.index ⟨(i 0).val / 4000, hlt⟩ (1 : Fin 2) * 64 + 64
    rw [e1]; omega

/-- An index of the array is in point `t`'s block iff each coordinate is in the block's range on its axis. -/
theorem mem_blk12 (t : Fin cfg0.N) (i : S100000x64.Idx) :
    i ∈ ((cfg0.win 12).blk t).view.set ↔ ∀ a : Fin 2, win0_12.index t a * S4000x64.size a ≤ (i a).val ∧ (i a).val < win0_12.index t a * S4000x64.size a + S4000x64.size a := by
  show i ∈ ((View.whole main_v5_0).slice (win0_12.rect t)).set ↔ _
  rw [View.set_slice_whole, Rect.mem_set_unit]
  exact Iff.rfl

/-- Every row of the array is in the block of the point its row number divided by 4000 names. -/
theorem cover12 (i : S100000x64.Idx) :
    ∃ t : Fin cfg0.N, (cfg0.win 12).flush t = true ∧ i ∈ ((cfg0.win 12).blk t).view.set := by
  have hi0 : (i 0).val < 100000 := (i 0).isLt
  have hi1 : (i 1).val < 64 := (i 1).isLt
  have hlt : (i 0).val / 4000 < cfg0.N := by have h2 := N0; omega
  obtain ⟨-, ⟨e0, e1⟩, -⟩ := idx_facts0 ⟨(i 0).val / 4000, hlt⟩
  have e0' : win0_12.index ⟨(i 0).val / 4000, hlt⟩ (0 : Fin 2) = (i 0).val / 4000 := e0
  refine ⟨⟨(i 0).val / 4000, hlt⟩, flush0_12 _, ?_⟩
  rw [mem_blk12]
  intro a
  match a with
  | ⟨0, _⟩ =>
    show win0_12.index ⟨(i 0).val / 4000, hlt⟩ (0 : Fin 2) * 4000 ≤ (i 0).val ∧ (i 0).val < win0_12.index ⟨(i 0).val / 4000, hlt⟩ (0 : Fin 2) * 4000 + 4000
    rw [e0']; omega
  | ⟨1, _⟩ =>
    show win0_12.index ⟨(i 0).val / 4000, hlt⟩ (1 : Fin 2) * 64 ≤ (i 1).val ∧ (i 1).val < win0_12.index ⟨(i 0).val / 4000, hlt⟩ (1 : Fin 2) * 64 + 64
    rw [e1]; omega

/-- THE PROJECTED ARRAY after the first call: `projArr` of the arrays as the region finds them. -/
theorem final13 (c : Dev nD) : (dat0 V c).arrAt 13 cfg0.N = projArr (V c main_arg0) (V c main_arg3) (V c main_v0) (V c main_arg5) (V c main_v1) (V c main_arg7) (V c main_v2) (V c main_arg9) :=
  (dat0 V c).arrAt_eq_of_cover 13 _ (fun t _ => flushed13_eq V c t) cover13

/-- THE SELF-TERM ARRAY after the first call: `selfArr` of the arrays as the region finds them. -/
theorem final12 (c : Dev nD) : (dat0 V c).arrAt 12 cfg0.N = selfArr (V c main_arg0) (V c main_arg3) (V c main_v0) (V c main_arg5) (V c main_v1) (V c main_arg7) (V c main_v2) (V c main_arg11) (V c main_v3) (V c main_arg13) (V c main_v4) :=
  (dat0 V c).arrAt_eq_of_cover 12 _ (fun t _ => flushed12_eq V c t) cover12

/-! ## The second call -/

theorem N1 : cfg1.N = 10 := N_1

/-- The output array of the second call: `max ((edge sum + bL) + self term) 0`, entry by entry. -/
def outArr (A : S100000x64.Idx → EReal) (Pself : S100000x64.Idx → EReal) (B : S1x64.Idx → EReal) : S100000x64.Idx → EReal :=
  ofEntries fun n j => max ((A (ix2 n j) + rowOf B j) + Pself (ix2 n j)) 0

/-- The printed index maps of the second call, decided over its 10 points. -/
theorem idx_facts1 : ∀ t : Fin cfg1.N,
    (win1_3.index t (0 : Fin 2) = t.val ∧ win1_3.index t (1 : Fin 2) = 0)
    ∧ (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0) :=
  (by decide +kernel : ∀ t : Fin grid1.N, _)

/-- The row of the array that row `r` of the second call's block `t` is. -/
def rowAt1 (t : Fin cfg1.N) (r : Fin 10000) : Fin 100000 :=
  ⟨t.val * 10000 + r.val, by have h1 := t.isLt; have h2 : cfg1.N = 10 := N1; have h3 := r.isLt; omega⟩

theorem ablk (c : Dev nD) (t : Fin cfg1.N) (r : Fin 10000) (j : Fin 64) :
    (iblk1 V c 0 t : S10000x64.Idx → EReal) (ix2 r j) = (V c main_v22 : S100000x64.Idx → EReal) (ix2 (rowAt1 t r) j) := by
  obtain ⟨-, ⟨e0, e1⟩, -⟩ := idx_facts1 t
  show V c main_v22 (((cfg1.win 0).blk t).view.emb (ix2 r j)) = V c main_v22 (ix2 (rowAt1 t r) j)
  refine congrArg (V c main_v22) ?_
  funext a; apply Fin.ext
  match a with
  | ⟨0, _⟩ => show win1_0.index t (0 : Fin 2) * 10000 + 1 * r.val = t.val * 10000 + r.val; rw [e0]; omega
  | ⟨1, _⟩ => show win1_0.index t (1 : Fin 2) * 64 + 1 * j.val = j.val; rw [e1]; omega

theorem pblk (c : Dev nD) (t : Fin cfg1.N) (r : Fin 10000) (j : Fin 64) :
    (iblk1 V c 1 t : S10000x64.Idx → EReal) (ix2 r j) = (V c main_v5_0 : S100000x64.Idx → EReal) (ix2 (rowAt1 t r) j) := by
  obtain ⟨-, -, ⟨e0, e1⟩, -⟩ := idx_facts1 t
  show V c main_v5_0 (((cfg1.win 1).blk t).view.emb (ix2 r j)) = V c main_v5_0 (ix2 (rowAt1 t r) j)
  refine congrArg (V c main_v5_0) ?_
  funext a; apply Fin.ext
  match a with
  | ⟨0, _⟩ => show win1_1.index t (0 : Fin 2) * 10000 + 1 * r.val = t.val * 10000 + r.val; rw [e0]; omega
  | ⟨1, _⟩ => show win1_1.index t (1 : Fin 2) * 64 + 1 * j.val = j.val; rw [e1]; omega

theorem bblk (c : Dev nD) (t : Fin cfg1.N) :
    (iblk1 V c 2 t : S1x64.Idx → EReal) = (V c main_v23 : S1x64.Idx → EReal) := by
  obtain ⟨-, -, -, ⟨e0, e1⟩⟩ := idx_facts1 t
  funext y
  show V c main_v23 (((cfg1.win 2).blk t).view.emb y) = V c main_v23 y
  refine congrArg (V c main_v23) ?_
  funext a; apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

theorem emb3 (t : Fin cfg1.N) (r : Fin 10000) (j : Fin 64) :
    ((cfg1.win 3).blk t).view.emb (ix2 r j) = ix2 (rowAt1 t r) j := by
  obtain ⟨⟨e0, e1⟩, -⟩ := idx_facts1 t
  funext a; apply Fin.ext
  match a with
  | ⟨0, _⟩ => show win1_3.index t (0 : Fin 2) * 10000 + 1 * r.val = t.val * 10000 + r.val; rw [e0]; omega
  | ⟨1, _⟩ => show win1_3.index t (1 : Fin 2) * 64 + 1 * j.val = j.val; rw [e1]; omega

/-- WHAT POINT `t` OF THE SECOND CALL WRITES BACK is block `t` of `outArr` of the arrays as the region finds them. -/
theorem flushed3_eq (c : Dev nD) (t : Fin cfg1.N) :
    (dat1 V c).flushed 3 t = ((cfg1.win 3).blk t).view.read (Elt Ideal)
      (outArr (V c main_v22) (V c main_v5_0) (V c main_v23)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz]
  funext y
  obtain ⟨r, j, rfl⟩ : ∃ (r : Fin 10000) (j : Fin 64), y = ix2 r j := ⟨y 0, y 1, eq_ix2 y⟩
  show k1_pay1 (iblk1 V c 0 t) (iblk1 V c 2 t) (iblk1 V c 1 t) (ix2 r j)
    = outArr (V c main_v22) (V c main_v5_0) (V c main_v23) (((cfg1.win 3).blk t).view.emb (ix2 r j))
  rw [emb3]
  refine (out_pay (iblk1 V c 0 t) (iblk1 V c 2 t) (iblk1 V c 1 t) r j).trans ?_
  rw [ablk, pblk, bblk]
  rfl

/-- An index of the array is in point `t`'s block iff each coordinate is in the block's range on its axis. -/
theorem mem_blk3 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v24).slice (win1_3.rect t)).set ↔ _
  rw [View.set_slice_whole, Rect.mem_set_unit]
  exact Iff.rfl

/-- Every row of the array is in the block of the point its row number divided by 10000 names. -/
theorem cover3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 10000 < cfg1.N := by have h2 := N1; omega
  obtain ⟨⟨e0, e1⟩, -⟩ := idx_facts1 ⟨(i 0).val / 10000, hlt⟩
  have e0' : win1_3.index ⟨(i 0).val / 10000, hlt⟩ (0 : Fin 2) = (i 0).val / 10000 := e0
  refine ⟨⟨(i 0).val / 10000, hlt⟩, flush1_3 _, ?_⟩
  rw [mem_blk3]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e0']; omega
  | ⟨1, _⟩ =>
    show win1_3.index ⟨(i 0).val / 10000, hlt⟩ (1 : Fin 2) * 64 ≤ (i 1).val ∧ (i 1).val < win1_3.index ⟨(i 0).val / 10000, hlt⟩ (1 : Fin 2) * 64 + 64
    rw [e1]; omega

/-- THE RESULT ARRAY after the second call: `outArr` of the arrays as the region finds them. -/
theorem final3 (c : Dev nD) : (dat1 V c).arrAt 3 cfg1.N = outArr (V c main_v22) (V c main_v5_0) (V c main_v23) :=
  (dat1 V c).arrAt_eq_of_cover 3 _ (fun t _ => flushed3_eq V c t) cover3

end Cert.KernelIdeal.ArrValue
end
-- ==== Proof.LibRowGatherScatter.lean ====
/-
  ROWS OF A MATRIX BY INDEX. A gather of whole rows of an [N, C] array at E start indices, and a
  scatter-add of E whole rows into an [N, C] array, each read at one index. In both, the row an index
  array entry selects is a function of the index array and the entry's position alone, not of the
  row width C: gathers (resp. scatter-adds) of two different widths at the same indices select the
  same rows.
-/
import Idealize.ShloMosaic.PureOps.Ideal
import Idealize.ShloMosaic.PureOps.Contract
import Idealize.ShloMosaic.Lib.ValueIdx

noncomputable section

open scoped BigOperators

namespace Idealize.ShloMosaic.RowIndexing

open Idealize.ShloMosaic
open Idealize.ShloMosaic.ValueIdx

/-- The dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row start index `e` selects: read signed and clamped into [0, N − 1]. -/
def gatherRow (N : Nat) (hN : 0 < N) {E w : Nat} (idx : IVec ⟨2, ![E, 1]⟩ w) (e : Fin E) : Fin N :=
  ⟨min (idx (ix2 e (0 : Fin 1))).toInt.toNat (N - 1), by omega⟩

/-- THE GATHER READ AT (e, c): the operand at (row, c), the row being the start index `e` read signed
    and clamped into [0, N − 1]. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherRow N hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    have hst : (rowGatherDims N E C wf).start (ix2 e c) idx 1 = 0 := by
      unfold GatherDims.start
      rw [dif_neg (show ¬ (1 : Fin 2) ∈ ([0] : List (Fin 2)) from by decide)]
    rw [hst]
    simp only [Nat.add_zero, Nat.zero_add]
    unfold GatherDims.offCoord
    rw [dif_pos ((GatherDims.mem_sKept (rowGatherDims N E C wf) 1).mpr
      ⟨show ¬ (1 : Fin 2) ∈ ([0] : List (Fin 2)) from by decide, List.not_mem_nil⟩)]
    rfl

/-- Two rank-2 indices built from coordinates agree exactly when the coordinates do. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-- The dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row update `e` lands on: the scatter index read signed and NOT clamped; none when it is outside [0, N). -/
def scatterRow (N : Nat) {E w : Nat} (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩ else none

/-- An operand axis is a kept one exactly when it is not an inserted window axis. -/
theorem mem_sKept_scatter {s si u : Shape} (d : ScatterDims s si u) (a : Fin s.rank) :
    a ∈ d.sKept ↔ a ∉ d.insertedWindowDims := by
  simp [ScatterDims.sKept, Shape.kept, List.mem_filter, List.mem_finRange]

/-- On the row axis the window of update (e, c') starts at scatter index `e`, read signed. -/
theorem start_rows_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem start_rows_one {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (show ¬ (1 : Fin 2) ∈ ([0] : List (Fin 2)) from by decide)]

/-- The row axis is inserted: its window coordinate is 0. -/
theorem window_rows_zero {N E C : Nat} (wf : ScatterDims.WF ⟨2, ![N, C]⟩ ⟨2, ![E, 1]⟩ ⟨2, ![E, C]⟩ [1] [0] [0] 1)
    (e : Fin E) (c' : Fin C) :
    (rowScatterDims N E C wf).window (ix2 e c') 0 = 0 := by
  unfold ScatterDims.window
  rw [dif_neg (fun h => (mem_sKept_scatter (rowScatterDims N E C wf) 0).mp h (List.mem_singleton.mpr rfl))]

/-- On the column axis the window coordinate of update (e, c') is c'. -/
theorem window_rows_one {N E C : Nat} (wf : ScatterDims.WF ⟨2, ![N, C]⟩ ⟨2, ![E, 1]⟩ ⟨2, ![E, C]⟩ [1] [0] [0] 1)
    (e : Fin E) (c' : Fin C) :
    (rowScatterDims N E C wf).window (ix2 e c') 1 = c'.val := by
  unfold ScatterDims.window
  rw [dif_pos ((mem_sKept_scatter (rowScatterDims N E C wf) 1).mpr
    (show ¬ (1 : Fin 2) ∈ ([0] : List (Fin 2)) from by decide))]
  rfl

/-- THE LANDING INDEX of update (e, c'): (row, c'), the row being scatter index `e` read signed, when that is
    inside [0, N); the update is dropped when it is not. -/
theorem resultIdx_rows {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).resultIdx? (ix2 e c') idx = (scatterRow N idx e).map (fun i => ix2 i c') := by
  have hs0 := start_rows_zero wf idx e c'
  have hs1 := start_rows_one wf idx e c'
  have hw0 := window_rows_zero wf e c'
  have hw1 := window_rows_one wf e c'
  have hc := c'.isLt
  unfold ScatterDims.resultIdx? scatterRow
  by_cases h : 0 ≤ (idx (ix2 e (0 : Fin 1))).toInt ∧ (idx (ix2 e (0 : Fin 1))).toInt < (N : Int)
  · have hall : ∀ a, 0 ≤ (rowScatterDims N E C wf).start (ix2 e c') idx a + (rowScatterDims N E C wf).window (ix2 e c') a ∧
        (rowScatterDims N E C wf).start (ix2 e c') idx a + (rowScatterDims N E C wf).window (ix2 e c') a
          < ((⟨2, ![N, C]⟩ : Shape).size a : Int) := by
      intro a
      match a with
      | ⟨0, _⟩ =>
        show 0 ≤ (rowScatterDims N E C wf).start (ix2 e c') idx 0 + ((rowScatterDims N E C wf).window (ix2 e c') 0 : Nat) ∧
          (rowScatterDims N E C wf).start (ix2 e c') idx 0 + ((rowScatterDims N E C wf).window (ix2 e c') 0 : Nat) < (N : Int)
        rw [hs0, hw0]
        omega
      | ⟨1, _⟩ =>
        show 0 ≤ (rowScatterDims N E C wf).start (ix2 e c') idx 1 + ((rowScatterDims N E C wf).window (ix2 e c') 1 : Nat) ∧
          (rowScatterDims N E C wf).start (ix2 e c') idx 1 + ((rowScatterDims N E C wf).window (ix2 e c') 1 : Nat) < (C : Int)
        rw [hs1, hw1]
        omega
    rw [dif_pos hall, dif_pos h]
    show some _ = some _
    congr 1
    funext a
    refine Fin.ext ?_
    match a with
    | ⟨0, _⟩ =>
      show ((rowScatterDims N E C wf).start (ix2 e c') idx 0 + ((rowScatterDims N E C wf).window (ix2 e c') 0 : Nat)).toNat
        = (idx (ix2 e (0 : Fin 1))).toInt.toNat
      rw [hs0, hw0]
      simp
    | ⟨1, _⟩ =>
      show ((rowScatterDims N E C wf).start (ix2 e c') idx 1 + ((rowScatterDims N E C wf).window (ix2 e c') 1 : Nat)).toNat
        = c'.val
      rw [hs1, hw1]
      simp
  · rw [dif_neg h, dif_neg ?_]
    · rfl
    · intro hall
      apply h
      have h0 := hall 0
      have h0' : 0 ≤ (rowScatterDims N E C wf).start (ix2 e c') idx 0 + ((rowScatterDims N E C wf).window (ix2 e c') 0 : Nat) ∧
          (rowScatterDims N E C wf).start (ix2 e c') idx 0 + ((rowScatterDims N E C wf).window (ix2 e c') 0 : Nat) < (N : Int) := h0
      rw [hs0, hw0] at h0'
      omega

/-- THE SCATTER-ADD READ AT (i, c): the operand's entry plus the sum, over the updates `e` whose row is `i`, of the
    update's entry at column `c`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatterDims N E C wf) x idx upd (ix2 i c)
      = x (ix2 i c) + ∑ e ∈ Finset.univ.filter (fun e : Fin E => scatterRow N idx e = some i), upd (ix2 e c) := by
  unfold Ideal.hostScatterAdd
  show x (ix2 i c) + _ = x (ix2 i c) + _
  congr 1
  rw [Finset.sum_filter, sum_idx2, Finset.sum_filter]
  refine Finset.sum_congr rfl fun e _ => ?_
  have key : ∀ c' : Fin C, ((scatterRow N idx e).map (fun i' => ix2 i' c') = some (ix2 i c)) ↔
      (scatterRow N idx e = some i ∧ c' = c) := by
    intro c'
    cases scatterRow N idx e with
    | none => simp
    | some r =>
      show (some (ix2 r c') = some (ix2 i c)) ↔ _
      rw [Option.some_inj, Option.some_inj]
      exact ix2_inj
  simp only [resultIdx_rows, key]
  by_cases hr : scatterRow N idx e = some i
  · rw [if_pos hr, Finset.sum_eq_single c]
    · rw [if_pos ⟨hr, rfl⟩]
    · intro c' _ hne
      rw [if_neg (fun h => hne h.2)]
    · intro h
      exact absurd (Finset.mem_univ c) h
  · rw [if_neg hr]
    refine Finset.sum_eq_zero fun c' _ => ?_
    rw [if_neg (fun h => hr h.1)]

end Idealize.ShloMosaic.RowIndexing

end
-- ==== Proof.KerResult.lean ====
import proofs.«175246_j20160576487476_2_alg».proof.Proof.Gen.KernelIdeal.Frame
import proofs.«175246_j20160576487476_2_alg».proof.Proof.KerArrays
import proofs.«175246_j20160576487476_2_alg».proof.Proof.LibRowGatherScatter
import Idealize.ShloMosaic.Lib.StableHlo.Run
import Idealize.ShloMosaic.Lib.Tactic
import Idealize.ShloMosaic.Lib.ValueLayout
import Idealize.ShloMosaic.PureOps.Ideal

/-!
  The program's result array, read at an entry, down to the argument arrays.

  Between the two calls the host gathers the projected array's rows at the edges' source nodes and scatter-adds them
  onto zeros at the edges' target nodes; the second call then adds `bL` and the self-term array and rectifies. Read at
  node `n`, column `j`, with the first call's arrays substituted, the result is the specification's
  "project first, then sum over the edges" entry of the ARGUMENT arrays: the biases enter the first call reshaped to
  one-row arrays, whose row is the bias vector.
-/

set_option maxRecDepth 16384

noncomputable section

namespace Cert.KernelIdeal.ResultValue

open Cert.KernelIdeal Cert.KernelIdeal.Gen Cert.KernelIdeal.ArrValue Idealize.ShloMosaic Idealize.ShloMosaic.TcCoe Idealize.SL.Sem
open Idealize.ShloMosaic.StableHlo Idealize.ShloMosaic.ValueIdx Idealize.ShloMosaic.RowIndexing Cert.GnnSpec

variable (m : (ℓ : Loc nD τ sig) → Buf (Elt Ideal) ℓ) (ρ : Dev nD → PrngReg)

/-- The `[2, E]` pair of index rows of relation 0, cut out of the `[3, 2, E]` edge array. -/
def pairIdx (a1 : IVec S3x2x600000 32) : IVec S2x600000 32 := fun i =>
  shapeCast S2x600000 (extractStridedSlice S1x2x600000 ![0, 0, 0] a1 slices_S3x2x600000_S1x2x600000_0_0_0) shapeCasts_S1x2x600000_S2x600000 i

/-- The scatter's indices: row 0 of the pair (each edge's target node), as an `[E, 1]` array. -/
def rowIdx (a1 : IVec S3x2x600000 32) : IVec S600000x1 32 :=
  broadcastInDim S600000x1 ![0] bcast_S600000_S600000x1_0 fun i =>
    shapeCast S600000 (extractStridedSlice S1x600000 ![0, 0] (pairIdx a1) slices_S2x600000_S1x600000_0_0) shapeCasts_S1x600000_S600000 i

/-- Row 1 of the pair (each edge's source node). -/
def colRaw (a1 : IVec S3x2x600000 32) : IVec S600000 32 := fun i =>
  shapeCast S600000 (extractStridedSlice S1x600000 ![1, 0] (pairIdx a1) slices_S2x600000_S1x600000_1_0) shapeCasts_S1x600000_S600000 i

/-- The gather's start indices: the source nodes, a negative one wrapped by adding the node count, as an `[E, 1]` array. -/
def colIdx (a1 : IVec S3x2x600000 32) : IVec S600000x1 32 :=
  broadcastInDim S600000x1 ![0] bcast_S600000_S600000x1_0
    (select (cmpi .slt (colRaw a1) (broadcastInDim S600000 ![] bcast_S_S600000 (constantI S_ 32 0#32)))
      (addi (colRaw a1) (broadcastInDim S600000 ![] bcast_S_S600000 (constantI S_ 32 100000#32)))
      (colRaw a1))

set_option maxHeartbeats 1000000 in
/-- The edge-sum array the second call reads: the scatter-add, onto zeros at the edges' target rows, of the projected
    array's rows gathered at the edges' source rows (as the first call left it). -/
theorem agg_entry (c : Dev nD) :
    V3 m ρ c main_v22 = Host.scatterAdd (F := Ideal) scatter_S100000x64_S600000x1_S600000x64_1_0_0_1
      (broadcastInDim S100000x64 ![] bcast_S_S100000x64 (constant (F := Ideal) S_ .f32 0x00000000#32))
      (rowIdx (W2 m ρ c (Proc.devRef .tc main_arg1)))
      (extf .f32 (Host.gather gather_S100000x64_S600000x1_S600000x64_1_0_n_n_0_1_164
        (W2 m ρ c (Proc.devRef .tc main_v5_1)) (colIdx (W2 m ρ c (Proc.devRef .tc main_arg1)))) bitsLt_bf16_f32) := by
  show StableHlo.after hostOps1 (W2 m ρ c) (Proc.devRef .tc main_v22) = _
  after_results_simp
  rfl

/-- The zero array reads the real zero everywhere. -/
theorem zeros_apply (i : S100000x64.Idx) :
    (broadcastInDim S100000x64 ![] bcast_S_S100000x64 (constant (F := Ideal) S_ .f32 0x00000000#32) : S100000x64.Idx → EReal) i = 0 := by
  rw [broadcastInDim_apply _ bcast_S_S100000x64 _ i (fun a => a.elim0) (fun a => a.elim0)]
  exact Ideal.ofBits_zero_f32

/-- A scatter-add, onto zeros, of rows gathered from `H`: entry `(n, j)` is zero plus the sum, over the updates whose
    target row is `n`, of `H` at the update's source row. -/
theorem scatter_gather_apply (Z : FVec Ideal S100000x64 .f32) (hZ : ∀ i, Z i = (0 : EReal)) (R Cx : IVec S600000x1 32)
    (H : FVec Ideal S100000x64 .bf16) (n : Fin 100000) (j : Fin 64) :
    Host.scatterAdd (F := Ideal) scatter_S100000x64_S600000x1_S600000x64_1_0_0_1 Z R
        (extf .f32 (Host.gather gather_S100000x64_S600000x1_S600000x64_1_0_n_n_0_1_164 H Cx) bitsLt_bf16_f32) (ix2 n j)
      = 0 + ∑ e ∈ Finset.univ.filter (fun e : Fin 600000 => scatterRow 100000 R e = some n),
          (H (ix2 (gatherRow 100000 (by omega) Cx e) j) : EReal) := by
  refine (scatterAdd_rows_apply Facts₀.scatter_S100000x64_S600000x1_S600000x64_1_0_0_1_wf Z R _ n j).trans ?_
  rw [hZ]
  refine congrArg (0 + ·) (Finset.sum_congr rfl fun e _ => ?_)
  exact gather_rows_apply (by omega) Facts₀.gather_S100000x64_S600000x1_S600000x64_1_0_n_n_0_1_164_wf H Cx e j

/-- THE EDGE SUM at node `n`, column `j`: zero plus the sum, over the edges whose target row is `n`, of the projected
    array's entry (`H`: the array as the first call left it) at the edge's source row; `A1` the edge array. -/
theorem agg_apply (c : Dev nD) (n : Fin 100000) (j : Fin 64) (H : S100000x64.Idx → EReal)
    (hH : W2 m ρ c (Proc.devRef .tc main_v5_1) = H) (A1 : IVec S3x2x600000 32)
    (hA : W2 m ρ c (Proc.devRef .tc main_arg1) = A1) :
    (V3 m ρ c main_v22 : S100000x64.Idx → EReal) (ix2 n j)
      = 0 + ∑ e ∈ Finset.univ.filter (fun e : Fin 600000 => scatterRow 100000 (rowIdx A1) e = some n),
          H (ix2 (gatherRow 100000 (by omega) (colIdx A1) e) j) := by
  have e := agg_entry m ρ c
  rw [hH, hA] at e
  refine (congrFun e (ix2 n j)).trans ?_
  exact scatter_gather_apply _ zeros_apply (rowIdx A1) (colIdx A1) H n j

/-! ## The arrays the first call finds: the arguments, and the biases as one-row arrays -/

theorem V1_arg0 (c : Dev nD) : V1 m ρ c main_arg0 = m ((c : Thread nD τ).loc main_arg0) := by
  show StableHlo.after hostOps0 (W0 m ρ c) (Proc.devRef .tc main_arg0) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg9 (c : Dev nD) : V1 m ρ c main_arg9 = m ((c : Thread nD τ).loc main_arg9) := by
  show StableHlo.after hostOps0 (W0 m ρ c) (Proc.devRef .tc main_arg9) = _
  after_results
theorem V1_arg11 (c : Dev nD) : V1 m ρ c main_arg11 = m ((c : Thread nD τ).loc main_arg11) := by
  show StableHlo.after hostOps0 (W0 m ρ c) (Proc.devRef .tc main_arg11) = _
  after_results
theorem V1_arg13 (c : Dev nD) : V1 m ρ c main_arg13 = m ((c : Thread nD τ).loc main_arg13) := by
  show StableHlo.after hostOps0 (W0 m ρ c) (Proc.devRef .tc main_arg13) = _
  after_results

theorem V1_main_v0_row (c : Dev nD) :
    rowOf (V1 m ρ c main_v0 : S1x64.Idx → EReal) = vecOf (m ((c : Thread nD τ).loc main_arg4) : S64.Idx → EReal) := by
  have e : V1 m ρ c main_v0 = (fun i => shapeCast S1x64 (m ((c : Thread nD τ).loc main_arg4) : S64.Idx → EReal) shapeCasts_S64_S1x64 i) := by
    show StableHlo.after hostOps0 (W0 m ρ c) (Proc.devRef .tc main_v0) = _
    after_results
    rfl
  funext q
  rw [e]
  exact shapeCast_a_1a_apply (m ((c : Thread nD τ).loc main_arg4) : S64.Idx → EReal) shapeCasts_S64_S1x64 0 q
theorem V1_main_v1_row (c : Dev nD) :
    rowOf (V1 m ρ c main_v1 : S1x64.Idx → EReal) = vecOf (m ((c : Thread nD τ).loc main_arg6) : S64.Idx → EReal) := by
  have e : V1 m ρ c main_v1 = (fun i => shapeCast S1x64 (m ((c : Thread nD τ).loc main_arg6) : S64.Idx → EReal) shapeCasts_S64_S1x64 i) := by
    show StableHlo.after hostOps0 (W0 m ρ c) (Proc.devRef .tc main_v1) = _
    after_results
    rfl
  funext q
  rw [e]
  exact shapeCast_a_1a_apply (m ((c : Thread nD τ).loc main_arg6) : S64.Idx → EReal) shapeCasts_S64_S1x64 0 q
theorem V1_main_v2_row (c : Dev nD) :
    rowOf (V1 m ρ c main_v2 : S1x128.Idx → EReal) = vecOf (m ((c : Thread nD τ).loc main_arg8) : S128.Idx → EReal) := by
  have e : V1 m ρ c main_v2 = (fun i => shapeCast S1x128 (m ((c : Thread nD τ).loc main_arg8) : S128.Idx → EReal) shapeCasts_S128_S1x128 i) := by
    show StableHlo.after hostOps0 (W0 m ρ c) (Proc.devRef .tc main_v2) = _
    after_results
    rfl
  funext q
  rw [e]
  exact shapeCast_a_1a_apply (m ((c : Thread nD τ).loc main_arg8) : S128.Idx → EReal) shapeCasts_S128_S1x128 0 q
theorem V1_main_v3_row (c : Dev nD) :
    rowOf (V1 m ρ c main_v3 : S1x64.Idx → EReal) = vecOf (m ((c : Thread nD τ).loc main_arg12) : S64.Idx → EReal) := by
  have e : V1 m ρ c main_v3 = (fun i => shapeCast S1x64 (m ((c : Thread nD τ).loc main_arg12) : S64.Idx → EReal) shapeCasts_S64_S1x64 i) := by
    show StableHlo.after hostOps0 (W0 m ρ c) (Proc.devRef .tc main_v3) = _
    after_results
    rfl
  funext q
  rw [e]
  exact shapeCast_a_1a_apply (m ((c : Thread nD τ).loc main_arg12) : S64.Idx → EReal) shapeCasts_S64_S1x64 0 q
theorem V1_main_v4_row (c : Dev nD) :
    rowOf (V1 m ρ c main_v4 : S1x64.Idx → EReal) = vecOf (m ((c : Thread nD τ).loc main_arg14) : S64.Idx → EReal) := by
  have e : V1 m ρ c main_v4 = (fun i => shapeCast S1x64 (m ((c : Thread nD τ).loc main_arg14) : S64.Idx → EReal) shapeCasts_S64_S1x64 i) := by
    show StableHlo.after hostOps0 (W0 m ρ c) (Proc.devRef .tc main_v4) = _
    after_results
    rfl
  funext q
  rw [e]
  exact shapeCast_a_1a_apply (m ((c : Thread nD τ).loc main_arg14) : S64.Idx → EReal) shapeCasts_S64_S1x64 0 q

/-- The edge array reaches the host stretch between the calls as launched. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

/-- So does the edge term's bias. -/
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

/-- The projected array as the first call leaves it. -/
theorem W2_proj (c : Dev nD) : W2 m ρ c (Proc.devRef .tc main_v5_1) = projArr (V1 m ρ c main_arg0) (V1 m ρ c main_arg3) (V1 m ρ c main_v0) (V1 m ρ c main_arg5) (V1 m ρ c main_v1) (V1 m ρ c main_arg7) (V1 m ρ c main_v2) (V1 m ρ c main_arg9) :=
  (W2_arr m ρ c 13).trans (final13 (V1 m ρ) c)

/-- The self-term array as the second call finds it. -/
theorem V3_self (c : Dev nD) : V3 m ρ c main_v5_0 = selfArr (V1 m ρ c main_arg0) (V1 m ρ c main_arg3) (V1 m ρ c main_v0) (V1 m ρ c main_arg5) (V1 m ρ c main_v1) (V1 m ρ c main_arg7) (V1 m ρ c main_v2) (V1 m ρ c main_arg11) (V1 m ρ c main_v3) (V1 m ρ c main_arg13) (V1 m ρ c main_v4) := by
  have e : V3 m ρ c main_v5_0 = W2 m ρ c (Proc.devRef .tc main_v5_0) := by
    show StableHlo.after hostOps1 (W2 m ρ c) (Proc.devRef .tc main_v5_0) = _
    after_results
  exact e.trans ((W2_arr m ρ c 12).trans (final12 (V1 m ρ) c))

/-- The edge term's bias as the second call finds it: a one-row array whose row is the bias vector. -/
theorem V3_bias_row (c : Dev nD) :
    rowOf (V3 m ρ c main_v23 : S1x64.Idx → EReal) = vecOf (m ((c : Thread nD τ).loc main_arg10) : S64.Idx → EReal) := by
  have e : V3 m ρ c main_v23 = (fun i => shapeCast S1x64 (W2 m ρ c (Proc.devRef .tc main_arg10) : S64.Idx → EReal) shapeCasts_S64_S1x64 i) := by
    show StableHlo.after hostOps1 (W2 m ρ c) (Proc.devRef .tc main_v23) = _
    after_results
    rfl
  funext q
  rw [e, W2_arg10]
  exact shapeCast_a_1a_apply (m ((c : Thread nD τ).loc main_arg10) : S64.Idx → EReal) shapeCasts_S64_S1x64 0 q

/-- THE RESULT at node `n`, column `j`, of the argument arrays: `max (((0 + ∑ over the edges landing on n of (hidden
    row of the edge's source node)·WL) + bL) + self term) 0`. -/
theorem result_apply (c : Dev nD) (n : Fin 100000) (j : Fin 64) :
    (W4 m ρ c (Proc.devRef .tc main_v24) : S100000x64.Idx → EReal) (ix2 n j)
      = outProjFirst
          (Finset.univ.filter (fun e : Fin 600000 => scatterRow 100000 (rowIdx (m ((c : Thread nD τ).loc main_arg1))) e = some n))
          (fun e => hidden (mat (m ((c : Thread nD τ).loc main_arg0) : S100000x128.Idx → EReal) (gatherRow 100000 (by omega) (colIdx (m ((c : Thread nD τ).loc main_arg1))) e)) (mat (m ((c : Thread nD τ).loc main_arg3) : S128x64.Idx → EReal)) (vecOf (m ((c : Thread nD τ).loc main_arg4) : S64.Idx → EReal)) (mat (m ((c : Thread nD τ).loc main_arg5) : S64x64.Idx → EReal)) (vecOf (m ((c : Thread nD τ).loc main_arg6) : S64.Idx → EReal)) (mat (m ((c : Thread nD τ).loc main_arg7) : S64x128.Idx → EReal)) (vecOf (m ((c : Thread nD τ).loc main_arg8) : S128.Idx → EReal)))
          (mat (m ((c : Thread nD τ).loc main_arg9) : S128x64.Idx → EReal)) (vecOf (m ((c : Thread nD τ).loc main_arg10) : S64.Idx → EReal))
          (selfTerm (mat (m ((c : Thread nD τ).loc main_arg0) : S100000x128.Idx → EReal) n) (hidden (mat (m ((c : Thread nD τ).loc main_arg0) : S100000x128.Idx → EReal) n) (mat (m ((c : Thread nD τ).loc main_arg3) : S128x64.Idx → EReal)) (vecOf (m ((c : Thread nD τ).loc main_arg4) : S64.Idx → EReal)) (mat (m ((c : Thread nD τ).loc main_arg5) : S64x64.Idx → EReal)) (vecOf (m ((c : Thread nD τ).loc main_arg6) : S64.Idx → EReal)) (mat (m ((c : Thread nD τ).loc main_arg7) : S64x128.Idx → EReal)) (vecOf (m ((c : Thread nD τ).loc main_arg8) : S128.Idx → EReal)))
            (mat (m ((c : Thread nD τ).loc main_arg11) : S128x64.Idx → EReal)) (vecOf (m ((c : Thread nD τ).loc main_arg12) : S64.Idx → EReal)) (mat (m ((c : Thread nD τ).loc main_arg13) : S128x64.Idx → EReal)) (vecOf (m ((c : Thread nD τ).loc main_arg14) : S64.Idx → EReal))) j := by
  have h4 : W4 m ρ c (Proc.devRef .tc main_v24) = outArr (V3 m ρ c main_v22) (V3 m ρ c main_v5_0) (V3 m ρ c main_v23) :=
    (W4_arr m ρ c 3).trans (final3 (V3 m ρ) c)
  rw [h4]
  unfold outArr
  rw [ofEntries_ix2]
  rw [agg_apply m ρ c n j _ (W2_proj m ρ c) _ (W2_arg1 m ρ c), V3_bias_row, V3_self]
  unfold projArr selfArr hiddenOf outProjFirst
  simp only [ofEntries_ix2]
  rw [V1_arg0, V1_arg3, V1_arg5, V1_arg7, V1_arg9, V1_arg11, V1_arg13, V1_main_v0_row, V1_main_v1_row, V1_main_v2_row,
    V1_main_v3_row, V1_main_v4_row]

end Cert.KernelIdeal.ResultValue
end
-- ==== Proof.RefValue.lean ====
/-
  THE REFERENCE PROGRAM'S RESULT READ AT AN INDEX. The reference computes, per node, a hidden row through three dense
  layers; gathers the hidden rows of the edges' source nodes; sums them over the edges that land on each node; and
  projects the sum, adding two more dense terms, under a final rectifier. Each stage is read at one entry and
  identified with the row-by-row mathematics: the hidden row, the gathered row, the sum over the landing edges, and
  last the whole output entry, where the sum over the edges comes BEFORE the projection.
-/
import proofs.«175246_j20160576487476_2_alg».proof.Proof.Gen.ReferenceIdeal.Read
import proofs.«175246_j20160576487476_2_alg».proof.Proof.GnnSpec
import proofs.«175246_j20160576487476_2_alg».proof.Proof.LibPlainDot
import proofs.«175246_j20160576487476_2_alg».proof.Proof.LibRowGatherScatter
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx
  Idealize.ShloMosaic.RowIndexing Cert.GnnSpec

/-! ## The building blocks read at an entry -/

/-- A plain matrix product on the host, at the exact reals, read at (r, c): row r of the left operand projected
    through the right operand, at column c. -/
theorem dot_apply {M K N : Nat} (wf : DotDims.WF ⟨2, ![M, K]⟩ ⟨2, ![K, N]⟩ ⟨2, ![M, N]⟩ [1] [0] [0] [1] [] [])
    (lhs : FVec Ideal ⟨2, ![M, K]⟩ .f32) (rhs : FVec Ideal ⟨2, ![K, N]⟩ .f32) (r : Fin M) (c : Fin N) :
    Host.dotGeneral (F := Ideal) (PlainDot.dims M K N wf) none lhs rhs (ix2 r c) = proj (mat lhs r) (mat rhs) c := by
  simp only [Host.dotGeneral]
  exact PlainDot.dotGeneral_apply wf _ _ lhs rhs r c

/-- A length-64 bias broadcast over the rows reads, at (n, q), the bias's entry q. -/
theorem bias64_apply (b : (⟨S64, .f32⟩ : BufTy).Contents (Elt Ideal)) (n : Fin 100000) (q : Fin 64) :
    val_main_v2 (F := Ideal) b (ix2 n q) = vecOf b q := by
  rw [val_main_v2_apply, val_main_v1_apply]
  show b _ = b (ix1 q)
  congr 1
  funext a
  match a with
  | ⟨0, _⟩ => rfl

/-- A length-128 bias broadcast over the rows reads, at (n, k), the bias's entry k. -/
theorem bias128_apply (b : (⟨S128, .f32⟩ : BufTy).Contents (Elt Ideal)) (n : Fin 100000) (k : Fin 128) :
    val_main_v12 (F := Ideal) b (ix2 n k) = vecOf b k := by
  rw [val_main_v12_apply, val_main_v11_apply]
  show b _ = b (ix1 k)
  congr 1
  funext a
  match a with
  | ⟨0, _⟩ => rfl

/-- The rectifier's broadcast zero constant is 0 at every entry. -/
theorem zero64_apply (i : S100000x64.Idx) : val_main_call0_v0 (F := Ideal) i = 0 := by
  rw [val_main_call0_v0_apply, val_main_call0_cst_apply]
  exact Ideal.ofBits_zero_f32

/-! ## The hidden row -/

/-- Layer 1 at (n, q): the rectified dense layer on node n's input row. -/
theorem layer1_apply (x0 : (⟨S100000x128, .f32⟩ : BufTy).Contents (Elt Ideal))
    (x3 : (⟨S128x64, .f32⟩ : BufTy).Contents (Elt Ideal)) (x4 : (⟨S64, .f32⟩ : BufTy).Contents (Elt Ideal))
    (n : Fin 100000) (q : Fin 64) :
    val_main_v4 (F := Ideal) x0 x3 x4 (ix2 n q) = relu (dense (mat x0 n) (mat x3) (vecOf x4)) q := by
  show max (val_main_v0 (F := Ideal) x0 x3 (ix2 n q) + val_main_v2 (F := Ideal) x4 (ix2 n q))
    (val_main_call0_v0 (F := Ideal) (ix2 n q)) = _
  rw [bias64_apply, zero64_apply]
  have h0 : val_main_v0 (F := Ideal) x0 x3 (ix2 n q) = proj (mat x0 n) (mat x3) q := dot_apply _ x0 x3 n q
  rw [h0]
  rfl

/-- Layer 2 at (n, q): the rectified dense layer on layer 1's row. -/
theorem layer2_apply
    (x0 : (⟨S100000x128, .f32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal))
    (n : Fin 100000) (q : Fin 64) :
    val_main_v9 (F := Ideal) x0 x3 x4 x5 x6 (ix2 n q)
      = relu (dense (relu (dense (mat x0 n) (mat x3) (vecOf x4))) (mat x5) (vecOf x6)) q := by
  show max (val_main_v5 (F := Ideal) x0 x3 x4 x5 (ix2 n q) + val_main_v2 (F := Ideal) x6 (ix2 n q))
    (val_main_call0_v0 (F := Ideal) (ix2 n q)) = _
  rw [bias64_apply, zero64_apply]
  have h0 : val_main_v5 (F := Ideal) x0 x3 x4 x5 (ix2 n q)
      = proj (mat (val_main_v4 (F := Ideal) x0 x3 x4) n) (mat x5) q :=
    dot_apply _ (val_main_v4 (F := Ideal) x0 x3 x4) x5 n q
  have h1 : mat (val_main_v4 (F := Ideal) x0 x3 x4) n = relu (dense (mat x0 n) (mat x3) (vecOf x4)) :=
    funext fun k => layer1_apply x0 x3 x4 n k
  rw [h0, h1]
  rfl

/-- THE HIDDEN ARRAY at (n, k): entry k of node n's hidden row. -/
theorem hidden_apply
    (x0 : (⟨S100000x128, .f32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x128, .f32⟩ : BufTy).Contents (Elt Ideal))
    (x8 : (⟨S128, .f32⟩ : BufTy).Contents (Elt Ideal))
    (n : Fin 100000) (k : Fin 128) :
    val_main_v13 (F := Ideal) x0 x3 x4 x5 x6 x7 x8 (ix2 n k)
      = hidden (mat x0 n) (mat x3) (vecOf x4) (mat x5) (vecOf x6) (mat x7) (vecOf x8) k := by
  show val_main_v10 (F := Ideal) x0 x3 x4 x5 x6 x7 (ix2 n k) + val_main_v12 (F := Ideal) x8 (ix2 n k) = _
  rw [bias128_apply]
  have h0 : val_main_v10 (F := Ideal) x0 x3 x4 x5 x6 x7 (ix2 n k)
      = proj (mat (val_main_v9 (F := Ideal) x0 x3 x4 x5 x6) n) (mat x7) k :=
    dot_apply _ (val_main_v9 (F := Ideal) x0 x3 x4 x5 x6) x7 n k
  have h1 : mat (val_main_v9 (F := Ideal) x0 x3 x4 x5 x6) n
      = relu (dense (relu (dense (mat x0 n) (mat x3) (vecOf x4))) (mat x5) (vecOf x6)) :=
    funext fun q => layer2_apply x0 x3 x4 x5 x6 n q
  rw [h0, h1]
  rfl

/-! ## The gathered rows and their sum over the landing edges -/

/-- THE GATHERED ARRAY at (e, k): the hidden array at (row, k), the row being edge e's start index, read signed
    and clamped. -/
theorem gathered_apply
    (x0 : (⟨S100000x128, .f32⟩ : BufTy).Contents (Elt Ideal)) (x1 : (⟨S3x2x600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x128, .f32⟩ : BufTy).Contents (Elt Ideal)) (x8 : (⟨S128, .f32⟩ : BufTy).Contents (Elt Ideal))
    (e : Fin 600000) (k : Fin 128) :
    val_main_v26 (F := Ideal) x0 x1 x3 x4 x5 x6 x7 x8 (ix2 e k)
      = val_main_v13 (F := Ideal) x0 x3 x4 x5 x6 x7 x8
          (ix2 (gatherRow 100000 (by decide) (val_main_v25 (F := Ideal) x1) e) k) := by
  unfold val_main_v26
  generalize val_main_v13 (F := Ideal) x0 x3 x4 x5 x6 x7 x8 = hid
  generalize val_main_v25 (F := Ideal) x1 = starts
  exact gather_rows_apply (N := 100000) (E := 600000) (C := 128) (by decide) _ hid starts e k

/-- A scatter-add of whole rows on the host, at the exact reals, read at (i, c): the operand's entry plus the sum, over
    the updates whose row is i, of the update's entry at column c. -/
theorem hostScatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => scatterRow N idx e = some i), upd (ix2 e c) :=
  scatterAdd_rows_apply wf x idx upd i c

/-- The scatter's zero operand is 0 at every entry. -/
theorem zero128_apply (i : S100000x128.Idx) : val_main_v27 (F := Ideal) i = 0 := by
  rw [val_main_v27_apply, val_main_cst_apply]
  exact Ideal.ofBits_zero_f32

/-- THE SCATTERED SUM at (n, k): zero plus the sum, over the edges that land on node n, of the gathered array's
    entry (e, k). -/
theorem summed_apply
    (x0 : (⟨S100000x128, .f32⟩ : BufTy).Contents (Elt Ideal)) (x1 : (⟨S3x2x600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x128, .f32⟩ : BufTy).Contents (Elt Ideal)) (x8 : (⟨S128, .f32⟩ : BufTy).Contents (Elt Ideal))
    (n : Fin 100000) (k : Fin 128) :
    val_main_v29 (F := Ideal) x0 x1 x3 x4 x5 x6 x7 x8 (ix2 n k)
      = 0 + ∑ e ∈ Finset.univ.filter
            (fun e : Fin 600000 => scatterRow 100000 (val_main_v28 (F := Ideal) x1) e = some n),
          val_main_v26 (F := Ideal) x0 x1 x3 x4 x5 x6 x7 x8 (ix2 e k) := by
  unfold val_main_v29
  generalize val_main_v26 (F := Ideal) x0 x1 x3 x4 x5 x6 x7 x8 = upd
  generalize val_main_v28 (F := Ideal) x1 = lands
  refine (hostScatterAdd_rows_apply (N := 100000) (E := 600000) (C := 128) _ _ lands upd n k).trans ?_
  rw [zero128_apply]

/-- Row n of the scattered sum: entry by entry, zero plus the sum of the hidden rows of the source nodes of the
    edges that land on node n. -/
theorem summed_row
    (x0 : (⟨S100000x128, .f32⟩ : BufTy).Contents (Elt Ideal)) (x1 : (⟨S3x2x600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x128, .f32⟩ : BufTy).Contents (Elt Ideal)) (x8 : (⟨S128, .f32⟩ : BufTy).Contents (Elt Ideal))
    (n : Fin 100000) :
    mat (val_main_v29 (F := Ideal) x0 x1 x3 x4 x5 x6 x7 x8) n
      = fun k => 0 + ∑ e ∈ Finset.univ.filter
            (fun e : Fin 600000 => scatterRow 100000 (val_main_v28 (F := Ideal) x1) e = some n),
          hidden (mat x0 (gatherRow 100000 (by decide) (val_main_v25 (F := Ideal) x1) e)) (mat x3) (vecOf x4) (mat x5)
            (vecOf x6) (mat x7) (vecOf x8) k := by
  funext k
  show val_main_v29 (F := Ideal) x0 x1 x3 x4 x5 x6 x7 x8 (ix2 n k) = _
  rw [summed_apply]
  refine congrArg (fun t : EReal => 0 + t) (Finset.sum_congr rfl fun e _ => ?_)
  rw [gathered_apply, hidden_apply]

/-! ## The output entry -/

/-- The bias of the edge term is broadcast the same way as layer 1's. -/
theorem v32_eq (b : (⟨S64, .f32⟩ : BufTy).Contents (Elt Ideal)) (i : S100000x64.Idx) :
    val_main_v32 (F := Ideal) b i = val_main_v2 (F := Ideal) b i := rfl
/-- So is the bias of the hidden row's self term. -/
theorem v36_eq (b : (⟨S64, .f32⟩ : BufTy).Contents (Elt Ideal)) (i : S100000x64.Idx) :
    val_main_v36 (F := Ideal) b i = val_main_v2 (F := Ideal) b i := rfl
/-- So is the bias of the input row's self term. -/
theorem v41_eq (b : (⟨S64, .f32⟩ : BufTy).Contents (Elt Ideal)) (i : S100000x64.Idx) :
    val_main_v41 (F := Ideal) b i = val_main_v2 (F := Ideal) b i := rfl
/-- The final rectifier's zero constant is layer 1's. -/
theorem call2_eq (i : S100000x64.Idx) : val_main_call2_v0 (F := Ideal) i = val_main_call0_v0 (F := Ideal) i := rfl

/-- At the exact reals the final stage's three sums under the rectifier are the extended reals' sums and maximum. -/
theorem max_add_def (a b c d e f z : Ideal .f32) :
    FloatOps.maximumf (F := Ideal) (FloatOps.addf (F := Ideal) (FloatOps.addf (F := Ideal)
        (FloatOps.addf (F := Ideal) a b) (FloatOps.addf (F := Ideal) c d)) (FloatOps.addf (F := Ideal) e f)) z
      = max (((a + b) + (c + d)) + (e + f)) z := rfl

/-- The output entry with its two self terms dense layers, written out. -/
theorem outSumFirst_dense {ι : Type} (E : Finset ι) (src : ι → Fin 128 → EReal) (wl : Fin 128 → Fin 64 → EReal)
    (bl : Fin 64 → EReal) (h x : Fin 128 → EReal) (w0 : Fin 128 → Fin 64 → EReal) (b0 : Fin 64 → EReal)
    (w1 : Fin 128 → Fin 64 → EReal) (b1 : Fin 64 → EReal) (j : Fin 64) :
    outSumFirst E src wl bl (dense h w0 b0) (dense x w1 b1) j
      = max (((proj (fun k => 0 + ∑ e ∈ E, src e k) wl j + bl j) + (proj h w0 j + b0 j)) + (proj x w1 j + b1 j)) 0 := rfl

/-- THE REFERENCE'S RESULT at (i, j): the hidden rows summed over the landing edges FIRST, the sum projected, the two
    self terms added, under the rectifier. -/
theorem result_apply
    (x0 : (⟨S100000x128, .f32⟩ : BufTy).Contents (Elt Ideal)) (x1 : (⟨S3x2x600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x128, .f32⟩ : BufTy).Contents (Elt Ideal)) (x8 : (⟨S128, .f32⟩ : BufTy).Contents (Elt Ideal))
    (x9 : (⟨S128x64, .f32⟩ : BufTy).Contents (Elt Ideal)) (x10 : (⟨S64, .f32⟩ : BufTy).Contents (Elt Ideal))
    (x11 : (⟨S128x64, .f32⟩ : BufTy).Contents (Elt Ideal)) (x12 : (⟨S64, .f32⟩ : BufTy).Contents (Elt Ideal))
    (x13 : (⟨S128x64, .f32⟩ : BufTy).Contents (Elt Ideal)) (x14 : (⟨S64, .f32⟩ : BufTy).Contents (Elt Ideal))
    (i : Fin 100000) (j : Fin 64) :
    val_main_v44 (F := Ideal) x0 x1 x3 x4 x5 x6 x7 x8 x9 x10 x11 x12 x13 x14 (ix2 i j)
      = outSumFirst
          (Finset.univ.filter (fun e : Fin 600000 => scatterRow 100000 (val_main_v28 (F := Ideal) x1) e = some i))
          (fun e => hidden (mat x0 (gatherRow 100000 (by decide) (val_main_v25 (F := Ideal) x1) e)) (mat x3) (vecOf x4)
            (mat x5) (vecOf x6) (mat x7) (vecOf x8))
          (mat x9) (vecOf x10)
          (dense (hidden (mat x0 i) (mat x3) (vecOf x4) (mat x5) (vecOf x6) (mat x7) (vecOf x8)) (mat x11) (vecOf x12))
          (dense (mat x0 i) (mat x13) (vecOf x14)) j := by
  rw [val_main_v44_apply, val_main_v43_apply, val_main_v38_apply, val_main_v33_apply, val_main_v37_apply,
    val_main_v42_apply, v32_eq, v36_eq, v41_eq, call2_eq, bias64_apply, bias64_apply, bias64_apply, zero64_apply,
    max_add_def]
  have h30 : val_main_v30 (F := Ideal) x0 x1 x3 x4 x5 x6 x7 x8 x9 (ix2 i j)
      = proj (mat (val_main_v29 (F := Ideal) x0 x1 x3 x4 x5 x6 x7 x8) i) (mat x9) j :=
    dot_apply _ (val_main_v29 (F := Ideal) x0 x1 x3 x4 x5 x6 x7 x8) x9 i j
  have h34 : val_main_v34 (F := Ideal) x0 x3 x4 x5 x6 x7 x8 x11 (ix2 i j)
      = proj (mat (val_main_v13 (F := Ideal) x0 x3 x4 x5 x6 x7 x8) i) (mat x11) j :=
    dot_apply _ (val_main_v13 (F := Ideal) x0 x3 x4 x5 x6 x7 x8) x11 i j
  have h39 : val_main_v39 (F := Ideal) x0 x13 (ix2 i j) = proj (mat x0 i) (mat x13) j :=
    dot_apply _ x0 x13 i j
  have h13 : mat (val_main_v13 (F := Ideal) x0 x3 x4 x5 x6 x7 x8) i = hidden (mat x0 i) (mat x3) (vecOf x4) (mat x5) (vecOf x6) (mat x7) (vecOf x8) :=
    funext fun k => hidden_apply x0 x3 x4 x5 x6 x7 x8 i k
  rw [h30, h34, h39, h13, summed_row, outSumFirst_dense]

end Cert.ReferenceIdeal.RefValue

end
-- ==== Proof.LibFiniteSums.lean ====
import Mathlib.Data.EReal.Basic
import Mathlib.Data.EReal.Operations
import Mathlib.Algebra.BigOperators.Ring.Finset
import Mathlib.Algebra.BigOperators.Group.Finset.Basic
import Mathlib.Algebra.BigOperators.Group.Finset.Sigma

/-!
# Finite sums of extended reals whose entries are real numbers

On the extended reals, multiplication does not distribute over addition in general
(for instance `(⊤ + ⊥) * (-1) = ⊥ * (-1) = ⊤` whereas `⊤ * (-1) + ⊥ * (-1) = ⊥ + ⊤ = ⊥`).
It does as soon as every entry
involved is (the image of) a real number, because the embedding `ℝ → EReal` preserves
`0`, `+`, `*`, `max` and finite sums.  This file records the predicate "is a real
number", its closure properties, and the interchange law for a product moved across a
finite double sum.
-/

open scoped BigOperators

namespace FiniteSums

/-- an extended real that is a real number -/
def IsReal (a : EReal) : Prop := ∃ r : ℝ, a = (r : EReal)

/-- The image of a real number is a real number. -/
theorem IsReal.coe (r : ℝ) : IsReal (r : EReal) := ⟨r, rfl⟩

/-- Zero is a real number. -/
theorem IsReal.zero : IsReal (0 : EReal) := ⟨0, EReal.coe_zero.symm⟩

/-- The sum of two real numbers is a real number. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The product of two real numbers is a real number. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The maximum of two real numbers is a real number (it is one of the two). -/
theorem IsReal.max {a b : EReal} (ha : IsReal a) (hb : IsReal b) : IsReal (max a b) := by
  rcases max_choice a b with h | h
  · rw [h]; exact ha
  · rw [h]; exact hb

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact IsReal.add (h i (Finset.mem_insert_self i s))
      (ih fun j hj => h j (Finset.mem_insert_of_mem hj))

/-- The embedding of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert i s hi ih =>
    rw [Finset.sum_insert hi, Finset.sum_insert hi, EReal.coe_add, ih]

/-- THE LAW: a sum over `k` of (a sum over `e`) times `w k` is the sum over `e` of the sums
over `k`, when all entries are reals.  Each entry is replaced by the image of its real
witness; the images of products and of finite sums are the products and finite sums of the
images, so the identity is the image of `Finset.sum_mul` followed by `Finset.sum_comm`
in `ℝ`. -/
theorem sum_mul_comm_of_isReal {ι κ : Type*} (s : Finset ι) (t : Finset κ)
    (a : ι → κ → EReal) (w : κ → EReal)
    (ha : ∀ e ∈ s, ∀ k ∈ t, IsReal (a e k)) (hw : ∀ k ∈ t, IsReal (w k)) :
    ∑ k ∈ t, (∑ e ∈ s, a e k) * w k = ∑ e ∈ s, ∑ k ∈ t, a e k * w k := by
  classical
  -- real witnesses, chosen everywhere (arbitrary outside `s` and `t`)
  let a' : ι → κ → ℝ := fun e k =>
    if h : e ∈ s ∧ k ∈ t then Classical.choose (ha e h.1 k h.2) else 0
  let w' : κ → ℝ := fun k => if h : k ∈ t then Classical.choose (hw k h) else 0
  have haa : ∀ e ∈ s, ∀ k ∈ t, a e k = ((a' e k : ℝ) : EReal) := by
    intro e he k hk
    have h : e ∈ s ∧ k ∈ t := ⟨he, hk⟩
    simp only [a', dif_pos h]
    exact Classical.choose_spec (ha e he k hk)
  have hww : ∀ k ∈ t, w k = ((w' k : ℝ) : EReal) := by
    intro k hk
    simp only [w', dif_pos hk]
    exact Classical.choose_spec (hw k hk)
  -- the left side is the image of a real double sum
  have hL : ∑ k ∈ t, (∑ e ∈ s, a e k) * w k
      = ((∑ k ∈ t, (∑ e ∈ s, a' e k) * w' k : ℝ) : EReal) := by
    rw [coe_finset_sum]
    refine Finset.sum_congr rfl fun k hk => ?_
    rw [EReal.coe_mul, coe_finset_sum, hww k hk]
    congr 1
    exact Finset.sum_congr rfl fun e he => haa e he k hk
  -- so is the right side
  have hR : ∑ e ∈ s, ∑ k ∈ t, a e k * w k
      = ((∑ e ∈ s, ∑ k ∈ t, a' e k * w' k : ℝ) : EReal) := by
    rw [coe_finset_sum]
    refine Finset.sum_congr rfl fun e he => ?_
    rw [coe_finset_sum]
    refine Finset.sum_congr rfl fun k hk => ?_
    rw [EReal.coe_mul, haa e he k hk, hww k hk]
  rw [hL, hR]
  congr 1
  -- the identity in `ℝ`
  simp only [Finset.sum_mul]
  exact Finset.sum_comm

end FiniteSums
-- ==== Proof.GnnBridge.lean ====
import proofs.«175246_j20160576487476_2_alg».proof.Proof.GnnSpec
import proofs.«175246_j20160576487476_2_alg».proof.Proof.LibFiniteSums

/-!
# The projection through `wl` commutes with the sum over the edges, on real entries

A node's output entry sums, over the edges that land on the node, the hidden rows of the edges'
source nodes projected through the matrix `wl`.  Projecting each source row and then summing
gives `∑ e, ∑ k, src e k * wl k j`; summing the rows and then projecting gives
`∑ k, (∑ e, src e k) * wl k j`.  On the extended reals the two agree when every hidden entry
`src e k` and every weight `wl k j` is a real number, because multiplication distributes over
finite sums of reals (it does not at `±∞`) and finite sums may be interchanged.  The remaining
difference between the two output entries is the association of the self terms,
`((P + bl) + A) + B` against `(P + bl) + (A + B)`: addition of extended reals is a commutative
monoid, so sums of extended reals are associative unconditionally.

Beside the bridge, the file records that a hidden row has real entries when the input row, the
weights and the biases have: a hidden entry is built from them by finite sums, products, sums
with a bias and `max · 0`, all of which keep real numbers real.
-/

noncomputable section

namespace Cert.GnnSpec

open FiniteSums

/-- A row of reals times a matrix of reals is a row of reals: each entry is a finite sum of
    products of reals. -/
theorem isReal_proj {n k : Nat} (x : Fin n → EReal) (w : Fin n → Fin k → EReal)
    (hx : ∀ i, IsReal (x i)) (hw : ∀ i q, IsReal (w i q)) (q : Fin k) : IsReal (proj x w q) := by
  unfold proj
  exact IsReal.sum Finset.univ _ fun i _ => IsReal.mul (hx i) (hw i q)

/-- A dense layer with real weights and real biases sends a row of reals to a row of reals. -/
theorem isReal_dense {n k : Nat} (x : Fin n → EReal) (w : Fin n → Fin k → EReal) (b : Fin k → EReal)
    (hx : ∀ i, IsReal (x i)) (hw : ∀ i q, IsReal (w i q)) (hb : ∀ q, IsReal (b q)) (q : Fin k) :
    IsReal (dense x w b q) := by
  unfold dense
  exact IsReal.add (isReal_proj x w hx hw q) (hb q)

/-- The rectifier `max · 0` sends a row of reals to a row of reals. -/
theorem isReal_relu {k : Nat} (v : Fin k → EReal) (hv : ∀ q, IsReal (v q)) (q : Fin k) :
    IsReal (relu v q) := by
  unfold relu
  exact IsReal.max (hv q) IsReal.zero

/-- A node's hidden row has real entries when its input row, the three weight matrices and the
    three bias rows have: the hidden row is three dense layers with the rectifier after the
    first two, and each of these keeps real numbers real. -/
theorem isReal_hidden (x : Fin 128 → EReal) (w1 : Fin 128 → Fin 64 → EReal) (b1 : Fin 64 → EReal)
    (w2 : Fin 64 → Fin 64 → EReal) (b2 : Fin 64 → EReal) (w3 : Fin 64 → Fin 128 → EReal)
    (b3 : Fin 128 → EReal)
    (hx : ∀ i, IsReal (x i)) (hw1 : ∀ i q, IsReal (w1 i q)) (hb1 : ∀ q, IsReal (b1 q))
    (hw2 : ∀ i q, IsReal (w2 i q)) (hb2 : ∀ q, IsReal (b2 q)) (hw3 : ∀ i q, IsReal (w3 i q))
    (hb3 : ∀ q, IsReal (b3 q)) (k : Fin 128) :
    IsReal (hidden x w1 b1 w2 b2 w3 b3 k) := by
  unfold hidden
  -- the first layer and its rectifier
  have h1 : ∀ q, IsReal (relu (dense x w1 b1) q) :=
    isReal_relu _ (isReal_dense x w1 b1 hx hw1 hb1)
  -- the second layer and its rectifier
  have h2 : ∀ q, IsReal (relu (dense (relu (dense x w1 b1)) w2 b2) q) :=
    isReal_relu _ (isReal_dense _ w2 b2 h1 hw2 hb2)
  -- the third layer
  exact isReal_dense _ w3 b3 h2 hw3 hb3 k

/-- THE BRIDGE: the output entry that sums the hidden rows over the edges first and projects the
    sum through `wl` equals the output entry that projects each hidden row first and sums the
    projections, with the two self terms added as one, when every hidden entry over the edges
    and every entry of `wl` is a real number.  The projections agree by distributivity and the
    interchange of the two finite sums (`sum_mul_comm_of_isReal`); the self terms by the
    associativity of addition, which needs no finiteness. -/
theorem outSumFirst_eq_outProjFirst {ι : Type} (E : Finset ι) (src : ι → Fin 128 → EReal)
    (wl : Fin 128 → Fin 64 → EReal) (bl selfA selfB : Fin 64 → EReal)
    (hsrc : ∀ e ∈ E, ∀ k, IsReal (src e k)) (hwl : ∀ k j, IsReal (wl k j)) (j : Fin 64) :
    outSumFirst E src wl bl selfA selfB j
      = outProjFirst E src wl bl (fun j => selfA j + selfB j) j := by
  -- the projection of the summed rows is the sum of the projected rows
  have hP : proj (fun k => 0 + ∑ e ∈ E, src e k) wl j = 0 + ∑ e ∈ E, proj (src e) wl j := by
    unfold proj
    simp only [zero_add]
    exact sum_mul_comm_of_isReal E Finset.univ (fun e k => src e k) (fun k => wl k j)
      (fun e he k _ => hsrc e he k) (fun k _ => hwl k j)
  unfold outSumFirst outProjFirst
  -- the self terms: `((P + bl) + A) + B = (P + bl) + (A + B)`
  rw [hP, add_assoc ((0 + ∑ e ∈ E, proj (src e) wl j) + bl j)]

end Cert.GnnSpec

end
-- ==== Proof.FiniteArgs.lean ====
import proofs.«175246_j20160576487476_2_alg».proof.Pre_finite_inputs
import Idealize.ShloMosaic.PureOps.Ideal
import Idealize.ShloMosaic.Lib.ReduceAll
import Idealize.ShloMosaic.Lib.ValueIdx

/-!
# The precondition "every float input is finite", decoded at the extended reals

At the ideal instance a float is an extended real.  The precondition computes, for each float
argument `x`, the array of bits `|x i| < +∞`, folds that array by `and` into one bit, and
`and`s the thirteen bits together; it states that the result is 1.  Then every one of the
thirteen bits is 1; a fold by `and` that is 1 met only 1s, so `|x i| < +∞` at every index;
and an extended real whose absolute value `max x (-x)` is below `⊤` is neither `⊤` nor `⊥`,
that is, it is a real number.
-/

set_option maxRecDepth 16384

noncomputable section

namespace Cert.FiniteArgs

open Idealize.ShloMosaic Idealize.ShloMosaic.ValueIdx Cert.Pre_finite_inputs

/-- The shape of rank 0 has one index. -/
instance : Subsingleton S_.Idx := ⟨fun a b => funext fun d => d.elim0⟩

/-- An extended real whose absolute value `max x (-x)` is below `⊤` is a real number:
    at `⊥` the absolute value is `max ⊥ ⊤ = ⊤`, at `⊤` it is `max ⊤ ⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The one-bit word of a Boolean is 1 exactly when the Boolean is true. -/
theorem ofBool_eq_one (b : Bool) : BitVec.ofBool b = 1#1 ↔ b = true := by cases b <;> decide

/-- The bit pattern `0x7F800000` of a 32-bit float denotes `+∞`. -/
theorem ofBits_inf : Ideal.ofBits .f32 0x7F800000#32 = (⊤ : EReal) := by
  simp [Ideal.ofBits, Ideal.ieee]

/-- ONE ARGUMENT'S BIT, READ BACK: if the fold by `and` of the array `|x i| < +∞` (the absolute
    value compared, ordered-less-than, with the broadcast constant `+∞`) is 1, then every entry
    of `x` is a real number. -/
theorem reals_of_all_lt_inf {s : Shape} {axes : List (Fin s.rank)} (x : FVec Ideal s .f32)
    (hb : S_.BroadcastsInDim s (![] : Fin 0 → Fin s.rank)) (hr : s.ReducesTo axes S_)
    (hu : 0 < S_.numel)
    (e : Host.reduce IntOp.andi
          (cmpf .olt (Host.absf x) (broadcastInDim s ![] hb (constant S_ .f32 0x7F800000#32)))
          (constantI S_ 1 1#1) hr hu ix0 = 1#1)
    (i : s.Idx) : ∃ r : ℝ, x i = (r : EReal) := by
  -- the entry's bit is 1
  have hi := Host.reduce_andi_all _ _ hr hu ix0 e i
  -- the entry's bit is the comparison `max (x i) (-(x i)) < +∞` on the linear order
  change Ideal.cmp .olt (max (x i) (-(x i))) (Ideal.ofBits .f32 0x7F800000#32) = 1#1 at hi
  rw [ofBits_inf] at hi
  apply real_of_abs_lt_top
  simpa [Ideal.cmp, ofBool_eq_one] using hi

/-- THE PRECONDITION DECODED: if the printed predicate "every float input is finite" holds of
    the arguments at the ideal instance, every entry of the float arguments 0, 3, 4, 5, 6, 7, 8, 9
    is a real number. -/
theorem reals_of_pre [Cert.Pre_finite_inputs.Facts]
    (a0 : FVec Ideal S100000x128 .f32) (a1 : IVec S3x2x600000 32) (a2 : IVec S600000 32) (a3 : FVec Ideal S128x64 .f32) (a4 : FVec Ideal S64 .f32)
    (a5 : FVec Ideal S64x64 .f32) (a6 : FVec Ideal S64 .f32) (a7 : FVec Ideal S64x128 .f32) (a8 : FVec Ideal S128 .f32) (a9 : FVec Ideal S128x64 .f32)
    (a10 : FVec Ideal S64 .f32) (a11 : FVec Ideal S128x64 .f32) (a12 : FVec Ideal S64 .f32) (a13 : FVec Ideal S128x64 .f32) (a14 : FVec Ideal S64 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) := by
  -- the result's one bit
  have e := congrFun h ix0
  -- unfold the chain of operations, one part at a time
  dsimp only [fn] at e
  dsimp only [fn_part1] at e
  dsimp only [fn_part2] at e
  dsimp only [fn_part3] at e
  -- the result is the `and` of thirteen bits, associated to the left: split it
  obtain ⟨e, -⟩ := IntOp.andi_eq_one.1 e   -- argument 14
  obtain ⟨e, -⟩ := IntOp.andi_eq_one.1 e   -- argument 13
  obtain ⟨e, -⟩ := IntOp.andi_eq_one.1 e   -- argument 12
  obtain ⟨e, -⟩ := IntOp.andi_eq_one.1 e   -- argument 11
  obtain ⟨e, -⟩ := IntOp.andi_eq_one.1 e   -- argument 10
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  exact ⟨reals_of_all_lt_inf a0 _ _ _ e0, reals_of_all_lt_inf a3 _ _ _ e3,
    reals_of_all_lt_inf a4 _ _ _ e4, reals_of_all_lt_inf a5 _ _ _ e5,
    reals_of_all_lt_inf a6 _ _ _ e6, reals_of_all_lt_inf a7 _ _ _ e7,
    reals_of_all_lt_inf a8 _ _ _ e8, reals_of_all_lt_inf a9 _ _ _ e9⟩

end Cert.FiniteArgs

end
-- ==== Proof.lean ====
/-
  The certificate of a message-passing layer: the two-call kernel against its plain reference, on the extended reals.

  Every node's input row goes through three dense layers (128 → 64 → 64 → 128, rectified after the first two) to its
  hidden row `h`. The reference sums the hidden rows of the source nodes over the edges that land on a node, projects
  that sum through `WL`, and adds `bL`, `h·W0 + b0` and `x·W1 + b1` before the final rectifier. The kernel projects
  every hidden row through `WL` FIRST (inside its first call, which also emits the self term `(h·W0 + b0) + (x·W1 + b1)`),
  gathers and sums the 64-wide projected rows over the edges on the host, and adds and rectifies in its second call.
  The two agree because a matrix product distributes over a finite sum of REAL numbers: under the precondition every
  float input is finite, so every hidden entry and every weight is a real, and
  `∑ₖ (∑ₑ h(src e) k) · WL k j = ∑ₑ ∑ₖ h(src e) k · WL k j`; the remaining difference is the grouping of three sums,
  which is associativity. Changes of float format are the identity on the extended reals, a matrix-unit product into a
  zero accumulator is the host's product, and both programs build the gather's and the scatter's index arrays by the
  same operations of the same edge array, so the edges that land on a node and their source rows are the same on both
  sides (the gather clamps, the scatter drops: identically in both).

  Frames: both kernels' are the generated ones; the reference's is its generated run with the result dropped. The ideal
  pass rewrote nothing, so the preservation claim is trivial.
-/
import proofs.«175246_j20160576487476_2_alg».proof.Defs
import proofs.«175246_j20160576487476_2_alg».proof.Proof.Gen.Kernel
import proofs.«175246_j20160576487476_2_alg».proof.Proof.Gen.Kernel.Frame
import proofs.«175246_j20160576487476_2_alg».proof.Proof.Gen.KernelIdeal
import proofs.«175246_j20160576487476_2_alg».proof.Proof.Gen.KernelIdeal.Frame
import proofs.«175246_j20160576487476_2_alg».proof.Proof.Gen.ReferenceIdeal
import proofs.«175246_j20160576487476_2_alg».proof.Proof.Gen.ReferenceIdeal.Run
import proofs.«175246_j20160576487476_2_alg».proof.Proof.Gen.ReferenceIdeal.Read
import proofs.«175246_j20160576487476_2_alg».proof.Proof.Gen.Pre_finite_inputs
import proofs.«175246_j20160576487476_2_alg».proof.Proof.KerRun
import proofs.«175246_j20160576487476_2_alg».proof.Proof.KerResult
import proofs.«175246_j20160576487476_2_alg».proof.Proof.RefValue
import proofs.«175246_j20160576487476_2_alg».proof.Proof.GnnBridge
import proofs.«175246_j20160576487476_2_alg».proof.Proof.FiniteArgs
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx Idealize.ShloMosaic.RowIndexing Cert.GnnSpec FiniteSums

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs cut the scatter's index array out of the edge array by the same operations. -/
theorem row_agree (a1 : IVec Cert.KernelIdeal.S3x2x600000 32) :
    Cert.KernelIdeal.ResultValue.rowIdx a1 = Cert.ReferenceIdeal.Read.val_main_v28 (F := Ideal) a1 := rfl

/-- Both programs build the gather's start indices from the edge array by the same operations. -/
theorem col_agree (a1 : IVec Cert.KernelIdeal.S3x2x600000 32) :
    Cert.KernelIdeal.ResultValue.colIdx a1 = Cert.ReferenceIdeal.Read.val_main_v25 (F := Ideal) a1 := rfl

/-- At the exact-real instance the two programs end with equal result arrays: entry by entry, the reference's
    "sum over the edges, then project" is the kernel's "project, then sum over the edges", every entry being a real. -/
theorem algebraic : Cert.algebraic_KernelIdeal_ReferenceIdeal := by
  intro m ρ m' ρ' hpre hagree
  refine ⟨fun c => Cert.KernelIdeal.Gen.W4 m ρ c (Proc.devRef .tc Cert.KernelIdeal.main_v24),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v44_eq, a0, a1, a3, a4, a5, a6, a7, a8, a9, a10, a11, a12, a13, a14]
  obtain ⟨r0, r3, r4, r5, r6, r7, r8, r9⟩ := Cert.FiniteArgs.reals_of_pre _ _ _ _ _ _ _ _ _ _ _ _ _ _ _ (hpre c)
  funext i
  obtain ⟨n, j, rfl⟩ : ∃ (n : Fin 100000) (j : Fin 64), i = ix2 n j := ⟨i 0, i 1, eq_ix2 i⟩
  refine (Cert.ReferenceIdeal.RefValue.result_apply _ _ _ _ _ _ _ _ _ _ _ _ _ _ n j).trans ?_
  refine Eq.trans ?_ (Cert.KernelIdeal.ResultValue.result_apply m ρ c n j).symm
  rw [← row_agree, ← col_agree]
  exact outSumFirst_eq_outProjFirst _ _ _ _ _ _
    (fun e _ k => isReal_hidden _ _ _ _ _ _ _ (fun i => r0 _) (fun i q => r3 _) (fun q => r4 _) (fun i q => r5 _)
      (fun q => r6 _) (fun i q => r7 _) (fun q => r8 _) k)
    (fun k j => r9 _) j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
